-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x128 : Shape := ⟨3, ![32, 8, 128]⟩
abbrev S32x8192x128 : Shape := ⟨3, ![32, 8192, 128]⟩
abbrev S32x8192 : Shape := ⟨2, ![32, 8192]⟩
abbrev S_ : Shape := ⟨0, ![]⟩

class Facts : Prop where
  bcast_S_S32x8x128 : S_.BroadcastsInDim S32x8x128 (![] : Fin 0 → Fin S32x8x128.rank)
  reducesTo_S32x8x128_S_d0_1_2 : S32x8x128.ReducesTo [0, 1, 2] S_
  h_S_ : 0 < S_.numel
  bcast_S_S32x8192x128 : S_.BroadcastsInDim S32x8192x128 (![] : Fin 0 → Fin S32x8192x128.rank)
  reducesTo_S32x8192x128_S_d0_1_2 : S32x8192x128.ReducesTo [0, 1, 2] S_
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S32x8x128 .f32) (main_arg1 : FVec F S32x8192x128 .f32) (main_arg2 : FVec F S32x8192 .f32) : IVec S_ 1 :=
  let main_v0 : FVec F S32x8x128 .f32 := Host.absf main_arg0
  let main_cst : FVec F S_ .f32 := constant S_ .f32 0x7F800000#32
  let main_v1 : FVec F S32x8x128 .f32 := broadcastInDim S32x8x128 ![] bcast_S_S32x8x128 main_cst
  let main_v2 : IVec S32x8x128 1 := cmpf .olt main_v0 main_v1
  let main_c : IVec S_ 1 := constantI S_ 1 1#1
  let main_v3 : IVec S_ 1 := (fun x v => Host.reduce IntOp.andi x v reducesTo_S32x8x128_S_d0_1_2 h_S_) main_v2 main_c
  let main_v4 : FVec F S32x8192x128 .f32 := Host.absf main_arg1
  let main_cst_0 : FVec F S_ .f32 := constant S_ .f32 0x7F800000#32
  let main_v5 : FVec F S32x8192x128 .f32 := broadcastInDim S32x8192x128 ![] bcast_S_S32x8192x128 main_cst_0
  let main_v6 : IVec S32x8192x128 1 := cmpf .olt main_v4 main_v5
  let main_c_1 : IVec S_ 1 := constantI S_ 1 1#1
  let main_v7 : IVec S_ 1 := (fun x v => Host.reduce IntOp.andi x v reducesTo_S32x8192x128_S_d0_1_2 h_S_) main_v6 main_c_1
  let main_v8 : IVec S_ 1 := andi main_v3 main_v7
  let main_v9 : FVec F S32x8192 .f32 := Host.absf main_arg2
  let main_cst_2 : FVec F S_ .f32 := constant S_ .f32 0x7F800000#32
  let main_v10 : FVec F S32x8192 .f32 := broadcastInDim S32x8192 ![] bcast_S_S32x8192 main_cst_2
  let main_v11 : IVec S32x8192 1 := cmpf .olt main_v9 main_v10
  let main_c_3 : IVec S_ 1 := constantI S_ 1 1#1
  let main_v12 : IVec S_ 1 := (fun x v => Host.reduce IntOp.andi x v reducesTo_S32x8192_S_d0_1 h_S_) main_v11 main_c_3
  let main_v13 : IVec S_ 1 := andi main_v8 main_v12
  main_v13
-- ==== Kernel.lean ====
abbrev S32x8x128 : Shape := ⟨3, ![32, 8, 128]⟩
abbrev S32x8192x128 : Shape := ⟨3, ![32, 8192, 128]⟩
abbrev S32x8192 : Shape := ⟨2, ![32, 8192]⟩
abbrev S32x1x8192 : Shape := ⟨3, ![32, 1, 8192]⟩
abbrev S1x8x128 : Shape := ⟨3, ![1, 8, 128]⟩
abbrev S1x4096x128 : Shape := ⟨3, ![1, 4096, 128]⟩
abbrev S1x1x8192 : Shape := ⟨3, ![1, 1, 8192]⟩
abbrev S8x128 : Shape := ⟨2, ![8, 128]⟩
abbrev S1x8192 : Shape := ⟨2, ![1, 8192]⟩
abbrev S8 : Shape := ⟨1, ![8]⟩
abbrev S8x1 : Shape := ⟨2, ![8, 1]⟩
abbrev S1x128 : Shape := ⟨2, ![1, 128]⟩
abbrev S4096x128 : Shape := ⟨2, ![4096, 128]⟩
abbrev S8x4096 : Shape := ⟨2, ![8, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 7
  | .vmem => 12
  | .smem => 0
  | _ => 0

abbrev bufTy : (tb : Table) → Fin (tcTables nBuf tb) → BufTy
  | .hbm, ⟨0, _⟩ => ⟨S32x8x128, .f32⟩
  | .hbm, ⟨1, _⟩ => ⟨S32x8192x128, .f32⟩
  | .hbm, ⟨2, _⟩ => ⟨S32x8192, .f32⟩
  | .hbm, ⟨3, _⟩ => ⟨S32x1x8192, .f32⟩
  | .hbm, ⟨4, _⟩ => ⟨S32x8x128, .f32⟩
  | .hbm, ⟨5, _⟩ => ⟨S32x1x8192, .f32⟩
  | .hbm, ⟨6, _⟩ => ⟨S32x8192, .f32⟩
  | .local _ .vmem, ⟨0, _⟩ => ⟨S1x8x128, .f32⟩
  | .local _ .vmem, ⟨1, _⟩ => ⟨S1x8x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x1x8192, .f32⟩
  | .local _ .vmem, ⟨7, _⟩ => ⟨S1x1x8192, .f32⟩
  | .local _ .vmem, ⟨8, _⟩ => ⟨S1x8x128, .f32⟩
  | .local _ .vmem, ⟨9, _⟩ => ⟨S1x8x128, .f32⟩
  | .local _ .vmem, ⟨10, _⟩ => ⟨S1x1x8192, .f32⟩
  | .local _ .vmem, ⟨11, _⟩ => ⟨S1x1x8192, .f32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x8192_S32x1x8192 : S32x8192.ShapeCasts S32x1x8192
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  reduces_S8x128_S8 : S8x128.Reduces [1] S8
  shapeCasts_S8_S8x1 : S8.ShapeCasts S8x1
  bitsLt_bf16_f32 : FTy.bits .bf16 < FTy.bits .f32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  broadcasts_S8x1_S8x4096 : S8x1.Broadcasts S8x4096
  broadcasts_S1x4096_S8x4096 : S1x4096.Broadcasts S8x4096
  reduces_S8x4096_S8 : S8x4096.Reduces [1] S8
  broadcasts_S8x1_S8x128 : S8x1.Broadcasts S8x128
  shapeCasts_S8x128_S1x8x128 : S8x128.ShapeCasts S1x8x128
  slices_S1x8192_o0_0_S1x4096 : S1x8192.Slices ![0, 0] S1x4096
  reduces_S8x4096_S4096 : S8x4096.Reduces [0] S4096
  shapeCasts_S4096_S1x4096 : S4096.ShapeCasts S1x4096
  inb_S1x1x8192_S1x1x4096_0_0_0 : ∀ a, (![0, 0, 0] : Fin 3 → Nat) a + S1x1x4096.size a ≤ S1x1x8192.size a
  h_S1x1x4096 : 0 < S1x1x4096.numel
  shapeCasts_S1x1x4096_S1x4096 : S1x1x4096.ShapeCasts S1x4096
  shapeCasts_S1x4096_S1x1x4096 : S1x4096.ShapeCasts S1x1x4096
  slices_S1x8192_o0_4096_S1x4096 : S1x8192.Slices ![0, 4096] S1x4096
  inb_S1x1x8192_S1x1x4096_0_0_4096 : ∀ a, (![0, 0, 4096] : Fin 3 → Nat) a + S1x1x4096.size a ≤ S1x1x8192.size a
  shapeCasts_S32x1x8192_S32x8192 : S32x1x8192.ShapeCasts S32x8192
  dot_S8x128_S4096x128_S8x4096_1_1_0_0_n_n_wf : DotDims.WF S8x128 S4096x128 S8x4096 [1] [1] [0] [0] [] []
  dot_S1x128_S4096x128_S1x4096_1_1_0_0_n_n_wf : DotDims.WF S1x128 S4096x128 S1x4096 [1] [1] [0] [0] [] []
  dot_S8x4096_S4096x128_S8x128_1_0_0_1_n_n_wf : DotDims.WF S8x4096 S4096x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128.size a ≤ S32x8x128.size a
  hwx0_0 : ∀ i : grid0.Coords, EltTy.bits .f32 = 32 ∨ (Rect.block (s := S32x8x128) S1x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S32x8192x128.size a
  hwx0_1 : ∀ i : grid0.Coords, EltTy.bits .f32 = 32 ∨ (Rect.block (s := S32x8192x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S32x8192x128.size a
  hwx0_2 : ∀ i : grid0.Coords, EltTy.bits .f32 = 32 ∨ (Rect.block (s := S32x8192x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S32x1x8192.size a
  hwx0_3 : ∀ i : grid0.Coords, EltTy.bits .f32 = 32 ∨ (Rect.block (s := S32x1x8192) S1x1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8192.size a ≤ S32x1x8192.size a
  hwx0_5 : ∀ i : grid0.Coords, EltTy.bits .f32 = 32 ∨ (Rect.block (s := S32x1x8192) S1x1x8192.size (cc0_transform_5 i) (hinb0_5 i)).WholeWords (EltTy.packing .f32)

variable [Facts₀]

def dot_S8x128_S4096x128_S8x4096_1_1_0_0_n_n : DotDims S8x128 S4096x128 S8x4096 where
  lhsContracting := [1]
  rhsContracting := [1]
  lhsNonContracting := [0]
  rhsNonContracting := [0]
  lhsBatch := []
  rhsBatch := []
  wf := dot_S8x128_S4096x128_S8x4096_1_1_0_0_n_n_wf
def dot_S1x128_S4096x128_S1x4096_1_1_0_0_n_n : DotDims S1x128 S4096x128 S1x4096 where
  lhsContracting := [1]
  rhsContracting := [1]
  lhsNonContracting := [0]
  rhsNonContracting := [0]
  lhsBatch := []
  rhsBatch := []
  wf := dot_S1x128_S4096x128_S1x4096_1_1_0_0_n_n_wf
def dot_S8x4096_S4096x128_S8x128_1_0_0_1_n_n : DotDims S8x4096 S4096x128 S8x128 where
  lhsContracting := [1]
  rhsContracting := [0]
  lhsNonContracting := [0]
  rhsNonContracting := [1]
  lhsBatch := []
  rhsBatch := []
  wf := dot_S8x4096_S4096x128_S8x128_1_0_0_1_n_n_wf

abbrev win0_0 : Pipeline.Window sig grid0 :=
  Pipeline.Window.ofSpec (Memref.whole main_arg0) S1x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x8x128 : Shape := ⟨3, ![32, 8, 128]⟩
abbrev S32x8192x128 : Shape := ⟨3, ![32, 8192, 128]⟩
abbrev S32x8192 : Shape := ⟨2, ![32, 8192]⟩
abbrev S32x8x8192 : Shape := ⟨3, ![32, 8, 8192]⟩
abbrev S_ : Shape := ⟨0, ![]⟩
abbrev S32x8 : Shape := ⟨2, ![32, 8]⟩
abbrev S32x8x1 : Shape := ⟨3, ![32, 8, 1]⟩
abbrev S32x1x8192 : Shape := ⟨3, ![32, 1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S32x8x128, .f32⟩
  | .hbm, ⟨1, _⟩ => ⟨S32x8192x128, .f32⟩
  | .hbm, ⟨2, _⟩ => ⟨S32x8192, .f32⟩
  | .hbm, ⟨3, _⟩ => ⟨S32x8x8192, .f32⟩
  | .hbm, ⟨4, _⟩ => ⟨S32x8x128, .f32⟩
  | .hbm, ⟨5, _⟩ => ⟨S_, .f32⟩
  | .hbm, ⟨6, _⟩ => ⟨S32x8, .f32⟩
  | .hbm, ⟨7, _⟩ => ⟨S32x8, .f32⟩
  | .hbm, ⟨8, _⟩ => ⟨S_, .f32⟩
  | .hbm, ⟨9, _⟩ => ⟨S32x8, .f32⟩
  | .hbm, ⟨10, _⟩ => ⟨S32x8, .f32⟩
  | .hbm, ⟨11, _⟩ => ⟨S_, .f32⟩
  | .hbm, ⟨12, _⟩ => ⟨S32x8, .f32⟩
  | .hbm, ⟨13, _⟩ => ⟨S32x8, .f32⟩
  | .hbm, ⟨14, _⟩ => ⟨S32x8192x128, .f32⟩
  | .hbm, ⟨15, _⟩ => ⟨S_, .f32⟩
  | .hbm, ⟨16, _⟩ => ⟨S32x8192, .f32⟩
  | .hbm, ⟨17, _⟩ => ⟨S32x8192, .f32⟩
  | .hbm, ⟨18, _⟩ => ⟨S_, .f32⟩
  | .hbm, ⟨19, _⟩ => ⟨S32x8192, .f32⟩
  | .hbm, ⟨20, _⟩ => ⟨S32x8192, .f32⟩
  | .hbm, ⟨21, _⟩ => ⟨S_, .f32⟩
  | .hbm, ⟨22, _⟩ => ⟨S32x8192, .f32⟩
  | .hbm, ⟨23, _⟩ => ⟨S32x8192, .f32⟩
  | .hbm, ⟨24, _⟩ => ⟨S32x8x1, .f32⟩
  | .hbm, ⟨25, _⟩ => ⟨S32x8x8192, .f32⟩
  | .hbm, ⟨26, _⟩ => ⟨S32x8x8192, .f32⟩
  | .hbm, ⟨27, _⟩ => ⟨S32x1x8192, .f32⟩
  | .hbm, ⟨28, _⟩ => ⟨S32x8x8192, .f32⟩
  | .hbm, ⟨29, _⟩ => ⟨S32x8x8192, .f32⟩
  | .hbm, ⟨30, _⟩ => ⟨S_, .f32⟩
  | .hbm, ⟨31, _⟩ => ⟨S32x8x8192, .f32⟩
  | .hbm, ⟨32, _⟩ => ⟨S32x8x8192, .f32⟩
  | .hbm, ⟨33, _⟩ => ⟨S_, .f32⟩
  | .hbm, ⟨34, _⟩ => ⟨S32x8, .f32⟩
  | .hbm, ⟨35, _⟩ => ⟨S_, .f32⟩
  | .hbm, ⟨36, _⟩ => ⟨S32x8, .f32⟩
  | .hbm, ⟨37, _⟩ => ⟨S32x8, .f32⟩
  | .hbm, ⟨38, _⟩ => ⟨S32x8x1, .f32⟩
  | .hbm, ⟨39, _⟩ => ⟨S32x8x8192, .f32⟩
  | .hbm, ⟨40, _⟩ => ⟨S32x8x8192, .f32⟩
  | .hbm, ⟨41, _⟩ => ⟨S32x8x8192, .f32⟩
  | .hbm, ⟨42, _⟩ => ⟨S_, .f32⟩
  | .hbm, ⟨43, _⟩ => ⟨S32x8, .f32⟩
  | .hbm, ⟨44, _⟩ => ⟨S32x8x1, .f32⟩
  | .hbm, ⟨45, _⟩ => ⟨S32x8x8192, .f32⟩
  | .hbm, ⟨46, _⟩ => ⟨S32x8x8192, .f32⟩
  | .hbm, ⟨47, _⟩ => ⟨S32x8x128, .f32⟩
  | .hbm, ⟨48, _⟩ => ⟨S_, .f32⟩
  | .hbm, ⟨49, _⟩ => ⟨S32x8192, .f32⟩
  | .hbm, ⟨50, _⟩ => ⟨S32x8192, .f32⟩
  | _, _ => ⟨S32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  reducesTo_S32x8x128_S32x8_d2 : S32x8x128.ReducesTo [2] S32x8
  h_S_ : 0 < S_.numel
  bcast_S_S32x8 : S_.BroadcastsInDim S32x8 (![] : Fin 0 → Fin S32x8.rank)
  reducesTo_S32x8192x128_S32x8192_d2 : S32x8192x128.ReducesTo [2] S32x8192
  bcast_S_S32x8192 : S_.BroadcastsInDim S32x8192 (![] : Fin 0 → Fin S32x8192.rank)
  bcast_S32x8_S32x8x1_0_1 : S32x8.BroadcastsInDim S32x8x1 (![0, 1] : Fin 2 → Fin S32x8x1.rank)
  bcast_S32x8x1_S32x8x8192_0_1_2 : S32x8x1.BroadcastsInDim S32x8x8192 (![0, 1, 2] : Fin 3 → Fin S32x8x8192.rank)
  bcast_S32x8192_S32x1x8192_0_2 : S32x8192.BroadcastsInDim S32x1x8192 (![0, 2] : Fin 2 → Fin S32x1x8192.rank)
  bcast_S32x1x8192_S32x8x8192_0_1_2 : S32x1x8192.BroadcastsInDim S32x8x8192 (![0, 1, 2] : Fin 3 → Fin S32x8x8192.rank)
  bcast_S_S32x8x8192 : S_.BroadcastsInDim S32x8x8192 (![] : Fin 0 → Fin S32x8x8192.rank)
  reducesTo_S32x8x8192_S32x8_d2 : S32x8x8192.ReducesTo [2] S32x8
  reducesTo_S32x8x8192_S32x8192_d1 : S32x8x8192.ReducesTo [1] S32x8192
  dot_S32x8x128_S32x8192x128_S32x8x8192_2_2_1_1_0_0_wf : DotDims.WF S32x8x128 S32x8192x128 S32x8x8192 [2] [2] [1] [1] [0] [0]
  dot_S32x8x8192_S32x8192x128_S32x8x128_2_1_1_2_0_0_wf : DotDims.WF S32x8x8192 S32x8192x128 S32x8x128 [2] [1] [1] [2] [0] [0]

variable [Facts₀]

def dot_S32x8x128_S32x8192x128_S32x8x8192_2_2_1_1_0_0 : DotDims S32x8x128 S32x8192x128 S32x8x8192 where
  lhsContracting := [2]
  rhsContracting := [2]
  lhsNonContracting := [1]
  rhsNonContracting := [1]
  lhsBatch := [0]
  rhsBatch := [0]
  wf := dot_S32x8x128_S32x8192x128_S32x8x8192_2_2_1_1_0_0_wf
def dot_S32x8x8192_S32x8192x128_S32x8x128_2_1_1_2_0_0 : DotDims S32x8x8192 S32x8192x128 S32x8x128 where
  lhsContracting := [2]
  rhsContracting := [1]
  lhsNonContracting := [1]
  rhsNonContracting := [2]
  lhsBatch := [0]
  rhsBatch := [0]
  wf := dot_S32x8x8192_S32x8192x128_S32x8x128_2_1_1_2_0_0_wf

class Facts : Prop extends Facts₀ where

variable [Facts]
-- ==== Proof.AttnBody.lean ====
/-
  The body of the attention-read kernel, run once on whole staging buffers.

  At a grid point the body is handed six buffers: the keys' block [1,8,128], the lower and the upper half of the
  batch's memory rows [1,4096,128] each, the usage row [1,1,8192], and the two result buffers, the read
  [1,8,128] and the new usage [1,1,8192].  It loads the four inputs whole, and stores the read whole and the new
  usage in two halves (columns 0–4095, then 4096–8191).  It also loads the result buffers before storing into
  them, but nothing it stores depends on what those loads return.  So after the body the inputs are as they were
  and each result buffer holds the pieces stored, as functions of the four input blocks alone.
-/
import proofs.«113234_g16999480558224_cont_week2b_405_14_alg».proof.Proof.Gen.KernelIdeal.Launch
import proofs.«113234_g16999480558224_cont_week2b_405_14_alg».proof.Proof.Gen.KernelIdeal.Skeleton
import proofs.«113234_g16999480558224_cont_week2b_405_14_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body loads and stores through -/

/-- The whole keys block (and the whole read buffer). -/
abbrev rKeys : Rect S1x8x128 := Rect.unit (s := S1x8x128) ![0, 0, 0] S1x8x128.size inb_S1x8x128_S1x8x128_0_0_0
/-- A whole half of the memory rows. -/
abbrev rRows : Rect S1x4096x128 := Rect.unit (s := S1x4096x128) ![0, 0, 0] S1x4096x128.size inb_S1x4096x128_S1x4096x128_0_0_0
/-- The whole usage row. -/
abbrev rUse : Rect S1x1x8192 := Rect.unit (s := S1x1x8192) ![0, 0, 0] S1x1x8192.size inb_S1x1x8192_S1x1x8192_0_0_0
/-- Columns 0–4095 of the usage row. -/
abbrev rUseLo : Rect S1x1x8192 := Rect.unit (s := S1x1x8192) ![0, 0, 0] S1x1x4096.size inb_S1x1x8192_S1x1x4096_0_0_0
/-- Columns 4096–8191 of the usage row. -/
abbrev rUseHi : Rect S1x1x8192 := Rect.unit (s := S1x1x8192) ![0, 0, 4096] S1x1x4096.size inb_S1x1x8192_S1x1x4096_0_0_4096

/-! ## What the body stores, from the four input blocks -/

/-- The read [1,8,128] stored into the read buffer: from the keys block `x0` and the two halves `x1`, `x2` of the rows. -/
def payRead (x0 : Vec F S1x8x128 .f32) (x1 x2 : Vec F S1x4096x128 .f32) : Vec F S1x8x128 .f32 :=
  k0_pay14 (k0_pay4 (View.ld x0 rKeys)) (k0_pay5 (F := F)) (k0_pay6 (View.ld x0 rKeys))
    (k0_pay9 (View.ld x0 rKeys) (View.ld x1 rRows)) (k0_pay10 (View.ld x0 rKeys) (View.ld x1 rRows)) (View.ld x2 rRows)

/-- The new usage of rows 0–4095, [1,1,4096]. -/
def payUseLo (x0 : Vec F S1x8x128 .f32) (x1 x2 : Vec F S1x4096x128 .f32) (x3 : Vec F S1x1x8192 .f32) : Vec F S1x1x4096 .f32 :=
  k0_pay15 (k0_pay3 (View.ld x3 rUse)) (k0_pay4 (View.ld x0 rKeys)) (k0_pay5 (F := F)) (k0_pay6 (View.ld x0 rKeys))
    (k0_pay8 (View.ld x0 rKeys) (View.ld x1 rRows)) (k0_pay10 (View.ld x0 rKeys) (View.ld x1 rRows)) (View.ld x2 rRows)

/-- The new usage of rows 4096–8191, [1,1,4096]. -/
def payUseHi (x0 : Vec F S1x8x128 .f32) (x1 x2 : Vec F S1x4096x128 .f32) (x3 : Vec F S1x1x8192 .f32) : Vec F S1x1x4096 .f32 :=
  k0_pay1 (k0_pay16 (k0_pay3 (View.ld x3 rUse)))
    (k0_pay17 (k0_pay4 (View.ld x0 rKeys)) (k0_pay5 (F := F)) (k0_pay6 (View.ld x0 rKeys)) (k0_pay10 (View.ld x0 rKeys) (View.ld x1 rRows)) (View.ld x2 rRows))

/-- The read buffer after the body: its one store. -/
def outRead (x0 : Vec F S1x8x128 .f32) (x1 x2 : Vec F S1x4096x128 .f32) : Vec F S1x8x128 .f32 :=
  View.canon [⟨rKeys, payRead x0 x1 x2⟩]

/-- The usage buffer after the body: its two stores, the later one first. -/
def outUse (x0 : Vec F S1x8x128 .f32) (x1 x2 : Vec F S1x4096x128 .f32) (x3 : Vec F S1x1x8192 .f32) : Vec F S1x1x8192 .f32 :=
  View.canon [⟨rUseHi, payUseHi x0 x1 x2 x3⟩, ⟨rUseLo, payUseLo x0 x1 x2 x3⟩]

/-- The one store of the read covers its buffer. -/
theorem coverRead (p0 : Vec F S1x8x128 .f32) (y : S1x8x128.Idx) :
    ∃ pc ∈ ([⟨rKeys, p0⟩] : List (View.Piece (Elt F) S1x8x128 .f32)), y ∈ pc.1.set :=
  View.cover_of_tiled [⟨rKeys, p0⟩] S1x8x128.size (by rfl) y

/-- The two stores of the usage tile its buffer. -/
theorem coverUse (p0 p1 : Vec F S1x1x4096 .f32) (y : S1x1x8192.Idx) :
    ∃ pc ∈ ([⟨rUseHi, p0⟩, ⟨rUseLo, p1⟩] : List (View.Piece (Elt F) S1x1x8192 .f32)), y ∈ pc.1.set :=
  View.cover_of_tiled [⟨rUseHi, p0⟩, ⟨rUseLo, p1⟩] S1x1x4096.size (by rfl) y

/-! ## The body's triple -/

set_option maxHeartbeats 4000000 in
/-- The body on whole staging buffers — the four inputs at contents `x0 … x3`, the two result buffers at anything —
    runs to its end holding the inputs as they were, the read buffer at `outRead` and the usage buffer at `outUse`
    of the inputs. -/
theorem sound_kernel (c : Dev nD) (E : Set ℕ) (i : grid0.Coords)
    (arg1 : Memref sig .tc .vmem S1x8x128 .f32) (harg1 : arg1.IsWhole) (arg2 : Memref sig .tc .vmem S1x4096x128 .f32) (harg2 : arg2.IsWhole)
    (arg3 : Memref sig .tc .vmem S1x4096x128 .f32) (harg3 : arg3.IsWhole) (arg4 : Memref sig .tc .vmem S1x1x8192 .f32) (harg4 : arg4.IsWhole)
    (arg5 : Memref sig .tc .vmem S1x8x128 .f32) (harg5 : arg5.IsWhole) (arg6 : Memref sig .tc .vmem S1x1x8192 .f32) (harg6 : arg6.IsWhole)
    (x0 : Vec F S1x8x128 .f32) (x1 x2 : Vec F S1x4096x128 .f32) (x3 : Vec F S1x1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outRead x0 x1 x2)
            ∗ owns (c : Thread nD τ) arg6 fullShare (outUse x0 x1 x2 x3)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRead _)
  iexists _; isplitr
  swap; · iexact H5
  ipureintro
  exact View.read_writes_eq_canon _ _ _ (coverUse _ _)

end Cert.KernelIdeal.Attn

end
-- ==== Proof.AttnRun.lean ====
/-
  The attention-read program run whole: one host reshape of the usage [32,8192] → [32,1,8192], the kernel at the 32
  batches, one host reshape of the new usage back to [32,8192].

  The kernel's six windows are the keys' block of batch `t`, the LOWER and the UPPER half of batch `t`'s memory rows
  — two windows on ONE array, each holding half of the array's share —, the usage row, and the two results' blocks.
  At every batch the four inputs are fetched, the body runs, and the two results are written back; nothing is carried
  from one batch to the next.  So after the run each result array holds, block by block, what the body stored at that
  batch, the three argument arrays are as they were, and the reshaped new usage is the reshape of the kernel's.
-/
import proofs.«113234_g16999480558224_cont_week2b_405_14_alg».proof.Proof.AttnBody

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: after the first reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the first reshape, the region, and the second reshape as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The first reshape writes none of the three arguments: the region finds each as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hb))

/-! ## The windows' blocks -/

/-- Window `w`'s block at batch `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every batch, for any proof data whose array is the region-entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The one pipeline on core `c`: the arrays as the region finds them; after the body at batch `t` each input's buffer at
    its block and each result's at what the body stored from the input blocks; nothing carried between batches, nothing
    owed; the memory's array shared in halves between the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRead (iblk m c 0 t) (iblk m c 1 t) (iblk m c 2 t)
    | ⟨5, _⟩ => outUse (iblk m c 0 t) (iblk m c 1 t) (iblk m c 2 t) (iblk m c 3 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outRead (iblk m c 0 t) (iblk m c 1 t) (iblk m c 2 t) := by dsimp only [dats]
theorem after5 (c : Dev nD) (t : Fin cfg0.N) : (dats m 0 c).after 5 t = outUse (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at any batch -/

/-- What the body is called with at batch `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any batch: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every batch. -/
theorem body_obligation (c : Dev nD) : BodyObligation (dats (F := F) m 0 c) (defs₀ (F := F)) Variants.none () Set.univ := fun t => by
  rw [bigSep_W0, bigSep_W0]
  exact sound_body m c t

end Cert.KernelIdeal.Attn

end
-- ==== Proof.AttnLaunch.lean ====
/-
  The launch of the attention-read program: from any memory, every weakly fair execution ends, with each window's array
  at what the write-backs left, the usage argument untouched and the reshaped new usage computed from the kernel's.

  Two windows read ONE array (the memory): the array's full share is dealt to them in halves at the region's entry and the
  halves are rejoined when the final state is read.  The reshape after the region reads the kernel's second result, which
  the region returns at the full share, and writes a buffer no window touches.
-/
import proofs.«113234_g16999480558224_cont_week2b_405_14_alg».proof.Proof.AttnRun

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The proof data's arrays are, window by window: the keys whole, the memory's two halves of its share, the reshaped
    usage whole, and the two results whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0) ∗ (((c.tc : Thread nD τ).loc main_arg1) ↦{fullShare.left} G 1)
          ∗ (((c.tc : Thread nD τ).loc main_arg1) ↦{fullShare.right} G 2) ∗ (((c.tc : Thread nD τ).loc main_v0) ↦{fullShare} G 3)
          ∗ (((c.tc : Thread nD τ).loc main_v1_0) ↦{fullShare} G 4) ∗ (((c.tc : Thread nD τ).loc main_v1_1) ↦{fullShare} G 5)) := by
  unfold Dat.arrays
  rw [bigSep_W0]
  rw [(arr_whole0 0).set_eq_univ, (arr_whole0 1).set_eq_univ, (arr_whole0 3).set_eq_univ,
    (arr_whole0 4).set_eq_univ, (arr_whole0 5).set_eq_univ]
  rfl

/-- The distinct buffers behind the windows: five, the memory behind two windows. -/
theorem arrRefs_eq : Finset.univ.image (Pipeline.arrRef spec0) = [main_arg0, main_arg1, main_v0, main_v1_0, main_v1_1].toFinset := by decide

/-- At the region's entry the five buffers, each whole at the full share, are the six windows' arrays: the memory's share
    dealt in halves to the two windows on it. -/
theorem entry_split (c : Dev nD) :
    (Pipeline.arrBufs spec0 c (V m c) : sProp 𝕄) ⊢ (dats m 0 c).arrays ((dats m 0 c).arrAt · 0) := by
  rw [arrays_chain]
  unfold Pipeline.arrBufs
  rw [bigSep_eq_bigSepL_of_eq _ arrRefs_eq (by decide)]
  show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0) ∗ (((c.tc : Thread nD τ).loc main_v1_0) ↦{fullShare} V m c main_v1_0)
      ∗ (((c.tc : Thread nD τ).loc main_v1_1) ↦{fullShare} V m c main_v1_1)) ⊢ _
  iintro ⟨H0, H1, H3, H4, H5⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  iexact H5

/-! ## The reshape after the region -/

/-- Of the six windows only the last is on the new usage's array. -/
theorem withArrays_use (c : Dev nD) (Vv : Valuation τ sig (Elt F))
    (A : (w : Fin cfg0.W) → Buf (Elt F) ((spec0 w).arr.view.loc (c.tc : Thread nD τ))) :
    Pipeline.withArrays spec0 c Vv A (Proc.devRef .tc main_v1_1) = A 5 := by
  unfold Pipeline.withArrays
  have h : ∃ w', Proc.devRef .tc (Pipeline.arrRef spec0 w') = Proc.devRef (τ := τ) .tc main_v1_1 := ⟨5, rfl⟩
  rw [dif_pos h]
  suffices ∀ (w' : Fin 6) (e : Proc.devRef .tc (Pipeline.arrRef spec0 w') = Proc.devRef (τ := τ) .tc main_v1_1),
      cast (congrArg (fun b' : DevRef τ sig => b'.ty.Contents (Elt F)) e) (A w') = A 5 from this _ h.choose_spec
  intro w' e
  obtain rfl : w' = 5 := (by decide : ∀ w' : Fin 6, Pipeline.arrRef spec0 w' = main_v1_1 → w' = 5) w' (Proc.devRef_injective _ e)
  rfl

/-- The buffers' contents when the region is left: each window's array as the write-backs left it, the rest as at entry. -/
abbrev Wx (c : Dev nD) : Valuation τ sig (Elt F) :=
  Pipeline.withArrays spec0 c (V0 m c) fun w => (dats m 0 c).arrAt w cfg0.N

/-- The buffers' contents at the end: after the second reshape. -/
abbrev Wend (c : Dev nD) (b : Ref sig .tc) : Buf (Elt F) ((c.tc : Thread nD τ).loc b) :=
  Pipeline.afterTail₀ cfgs (dats m) 0 (V0 m) [hostOps1] c b

theorem Wend_eq (c : Dev nD) (b : Ref sig .tc) : Wend m c b = StableHlo.after hostOps1 (Wx m c) (Proc.devRef .tc b) := rfl

/-- The second reshape does not write the usage argument, which no window touches: it ends as the region found it. -/
theorem Wend_arg2 (c : Dev nD) : Wend m c main_arg2 = V m c main_arg2 := by
  rw [Wend_eq]
  rw [StableHlo.after_of_forall_not_mem (b := Proc.devRef .tc main_arg2) _ _ (List.forall_iff_forall_mem.mp (by
      simp only [hostOps1, List.Forall, StableHlo.reshape_writes, Finset.mem_singleton]
      exact StableHlo.devRef_ne_of_ne (by decide)))]
  exact Pipeline.withArrays_of_ne _ c (V0 m c) _ main_arg2 (by exact (by decide : ∀ w, Pipeline.arrRef spec0 w ≠ main_arg2))

/-- Nor the new usage's array it reads. -/
theorem Wend_use (c : Dev nD) : Wend m c main_v1_1 = (dats m 0 c).arrAt 5 cfg0.N := by
  rw [Wend_eq]
  rw [StableHlo.after_of_forall_not_mem (b := Proc.devRef .tc main_v1_1) _ _ (List.forall_iff_forall_mem.mp (by
      simp only [hostOps1, List.Forall, StableHlo.reshape_writes, Finset.mem_singleton]
      exact StableHlo.devRef_ne_of_ne (by decide)))]
  exact withArrays_use c _ _

/-- The two buffers the second reshape touches, held whole. -/
theorem held_pair (c : Dev nD) (W : Valuation τ sig (Elt F)) :
    (StableHlo.held (c.tc : Thread nD τ) ({Proc.devRef .tc main_v1_1, Proc.devRef .tc main_v2} : Finset (DevRef τ sig)) W : sProp 𝕄)
      = iprop((((c.tc : Thread nD τ).loc main_v1_1) ↦{fullShare} W (Proc.devRef .tc main_v1_1))
          ∗ (((c.tc : Thread nD τ).loc main_v2) ↦{fullShare} W (Proc.devRef .tc main_v2))) := by
  unfold StableHlo.held
  rw [bigSep_insert (Finset.mem_singleton.not.mpr (StableHlo.devRef_ne_of_ne (by decide))), BI.bigSep_singleton]
  rfl

/-- The second reshape, run from the region's exit: it takes the new usage's array (whole, as the last window returns it)
    and the buffer it writes out of the bypassing rest, and hands the arrays back as they were and the rest at its contents
    after the reshape. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Wend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq, arrays_chain, Wend_arg2]
  rw [Pipeline.chain_cons, Pipeline.chain_nil]
  iintro ⟨Hk, Hb, ⟨A0, A1, A2, A3, A4, A5⟩, ⟨R2, Rv⟩⟩
  ihave Hh := (show iprop((((c.tc : Thread nD τ).loc main_v1_1) ↦{fullShare} (dats m 0 c).arrAt 5 cfg0.N)
        ∗ (((c.tc : Thread nD τ).loc main_v2) ↦{fullShare} V m c main_v2))
      ⊢ (StableHlo.held (c.tc : Thread nD τ) ({Proc.devRef .tc main_v1_1, Proc.devRef .tc main_v2} : Finset (DevRef τ sig)) (Wx m c) : sProp 𝕄) from by
        rw [held_pair, show Wx m c (Proc.devRef .tc main_v1_1) = (dats m 0 c).arrAt 5 cfg0.N from withArrays_use c _ _,
          show Wx m c (Proc.devRef .tc main_v2) = V m c main_v2 from
            Pipeline.withArrays_of_ne _ c (V0 m c) _ main_v2 (by exact (by decide : ∀ w, Pipeline.arrRef spec0 w ≠ main_v2))]) $$ [A5 Rv]
  · isplitl [A5]; · iexact A5
    iexact Rv
  iapply (StableHlo.wp_seq (Variants.lift Variants.none) none Set.univ c ({Proc.devRef .tc main_v1_1, Proc.devRef .tc main_v2} : Finset (DevRef τ sig)) _ hostOps1
    (by intro op hop; simp only [hostOps1, List.mem_cons, List.mem_nil_iff, _root_.or_false] at hop; subst hop; exact subset_of_eq (StableHlo.reshape_bufs ..))
    (fun op hop => (List.forall_iff_forall_mem.mp hostOps1_fresh) op hop) (Wx m c)) $$ [Hb Hh]
  · isplitl [Hb]; · iexact Hb
    iexact Hh
  iintro ⟨Hb, Hh⟩
  rw [wp_pure]
  imodintro
  iapply Hk
  ihave Hp := (show (StableHlo.held (c.tc : Thread nD τ) ({Proc.devRef .tc main_v1_1, Proc.devRef .tc main_v2} : Finset (DevRef τ sig)) (StableHlo.after hostOps1 (Wx m c)) : sProp 𝕄)
      ⊢ iprop((((c.tc : Thread nD τ).loc main_v1_1) ↦{fullShare} (dats m 0 c).arrAt 5 cfg0.N)
        ∗ (((c.tc : Thread nD τ).loc main_v2) ↦{fullShare} Wend m c main_v2)) from by
        rw [held_pair, ← Wend_eq, ← Wend_eq, Wend_use]) $$ Hh
  icases Hp with ⟨A5, Rv⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R2]; · iexact R2
  iexact Rv

/-! ## The run -/

-- the launch theorem's implicit arguments are found by unifying its conclusion with this one, which takes unfolding plain
-- definitions in a metavariable's type
set_option backward.isDefEq.respectTransparency.types false in
/-- From any memory with zero counters every weakly fair execution of the program on the TensorCores terminates, and every
    final state has each window's array at what the write-backs left and every other unscoped buffer at its contents after
    the second reshape. -/
theorem run_main : θ_run defs (onTc (τ := τ) (main (F := F))) (s₀ m ρ) (Pipeline.FramePost cfgs (dats m) 0 (Wend m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT Pipeline.Prefetch.none (fun k => k.elim0) c) by
      unfold Pipeline.ΦA Pipeline.ΦT; iintro ⟨Hp, Ht, Hr⟩
      isplitr [Ht]
      · isplitl [Hr] <;> iassumption
      · iexact Ht).trans (show _ ⊢ Pipeline.ΦA spec0 c from by iintro ⟨H, -⟩; iexact H))
    (hout := fun c => by
      rw [Pipeline.ownSems0_none]
      show Pipeline.ΦA spec0 c ⊢ _
      unfold Pipeline.ΦA
      iintro ⟨Hr, Hp⟩
      isplitl [Hp]; · iexact Hp
      isplitr; · iempintro
      iexact Hr)
    (htail := fun c Q' => tail_run m c Q')
    (QY := fun c s => ∀ b ∈ Pipeline.restRefsP sig Pipeline.Prefetch.none spec0, s.mem ((c.tc : Thread nD τ).loc b) = Wend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wend m c) s')
      isplitl [HU] <;> iassumption)
    (hQ := fun s h c => ⟨(h c).1, fun b hb => (h c).2.2 b (Finset.mem_sdiff.mpr ⟨hb, fun hk => by
      obtain ⟨k, -, -⟩ := Finset.mem_image.mp hk; exact k.elim0⟩)⟩)

/-! ## What the final state holds -/

/-- The three argument arrays end as they were launched: the keys and the memory are only read through their windows, the
    usage argument is touched by no window and written by no reshape. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_arg m c main_arg0 (by decide)))),
     ((h c).1 1).trans (((dats m 0 c).arrAt_in 1 rfl _).trans ((A_eq m c 1).trans (V_arg m c main_arg1 (by decide)))),
     ((h c).2 main_arg2 (Pipeline.mem_restRefs_of main_arg2 (by decide) (by decide))).trans
       ((Wend_arg2 m c).trans (V_arg m c main_arg2 (by decide)))⟩) (run_main m ρ)

/-- The run with its two results named: the read is the fifth window's array after the last write-back, the new usage the
    second reshape's result; the arguments end as launched. -/
theorem run_named : θ_run defs (onTc (τ := τ) (main (F := F))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v2) = Wend m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 4,
     (h c).2 main_v2 (Pipeline.mem_restRefs_of main_v2 (by decide) (by decide)),
     ((h c).1 0).trans (((dats m 0 c).arrAt_in 0 rfl _).trans ((A_eq m c 0).trans (V_arg m c main_arg0 (by decide)))),
     ((h c).1 1).trans (((dats m 0 c).arrAt_in 1 rfl _).trans ((A_eq m c 1).trans (V_arg m c main_arg1 (by decide)))),
     ((h c).2 main_arg2 (Pipeline.mem_restRefs_of main_arg2 (by decide) (by decide))).trans
       ((Wend_arg2 m c).trans (V_arg m c main_arg2 (by decide)))⟩) (run_main m ρ)

end Cert.KernelIdeal.Attn

end
-- ==== Proof.AttnBodyBits.lean ====
/-
  The body of the attention-read kernel, run once on whole staging buffers.

  At a grid point the body is handed six buffers: the keys' block [1,8,128], the lower and the upper half of the
  batch's memory rows [1,4096,128] each, the usage row [1,1,8192], and the two result buffers, the read
  [1,8,128] and the new usage [1,1,8192].  It loads the four inputs whole, and stores the read whole and the new
  usage in two halves (columns 0–4095, then 4096–8191).  It also loads the result buffers before storing into
  them, but nothing it stores depends on what those loads return.  So after the body the inputs are as they were
  and each result buffer holds the pieces stored, as functions of the four input blocks alone.
-/
import proofs.«113234_g16999480558224_cont_week2b_405_14_alg».proof.Proof.Gen.Kernel.Launch
import proofs.«113234_g16999480558224_cont_week2b_405_14_alg».proof.Proof.Gen.Kernel.Skeleton
import proofs.«113234_g16999480558224_cont_week2b_405_14_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body loads and stores through -/

/-- The whole keys block (and the whole read buffer). -/
abbrev rKeys : Rect S1x8x128 := Rect.unit (s := S1x8x128) ![0, 0, 0] S1x8x128.size inb_S1x8x128_S1x8x128_0_0_0
/-- A whole half of the memory rows. -/
abbrev rRows : Rect S1x4096x128 := Rect.unit (s := S1x4096x128) ![0, 0, 0] S1x4096x128.size inb_S1x4096x128_S1x4096x128_0_0_0
/-- The whole usage row. -/
abbrev rUse : Rect S1x1x8192 := Rect.unit (s := S1x1x8192) ![0, 0, 0] S1x1x8192.size inb_S1x1x8192_S1x1x8192_0_0_0
/-- Columns 0–4095 of the usage row. -/
abbrev rUseLo : Rect S1x1x8192 := Rect.unit (s := S1x1x8192) ![0, 0, 0] S1x1x4096.size inb_S1x1x8192_S1x1x4096_0_0_0
/-- Columns 4096–8191 of the usage row. -/
abbrev rUseHi : Rect S1x1x8192 := Rect.unit (s := S1x1x8192) ![0, 0, 4096] S1x1x4096.size inb_S1x1x8192_S1x1x4096_0_0_4096

/-! ## What the body stores, from the four input blocks -/

/-- The read [1,8,128] stored into the read buffer: from the keys block `x0` and the two halves `x1`, `x2` of the rows. -/
def payRead (x0 : Vec F S1x8x128 .f32) (x1 x2 : Vec F S1x4096x128 .f32) : Vec F S1x8x128 .f32 :=
  k0_pay14 (k0_pay4 (View.ld x0 rKeys)) (k0_pay5 (F := F)) (k0_pay6 (View.ld x0 rKeys))
    (k0_pay9 (View.ld x0 rKeys) (View.ld x1 rRows)) (k0_pay10 (View.ld x0 rKeys) (View.ld x1 rRows)) (View.ld x2 rRows)

/-- The new usage of rows 0–4095, [1,1,4096]. -/
def payUseLo (x0 : Vec F S1x8x128 .f32) (x1 x2 : Vec F S1x4096x128 .f32) (x3 : Vec F S1x1x8192 .f32) : Vec F S1x1x4096 .f32 :=
  k0_pay15 (k0_pay3 (View.ld x3 rUse)) (k0_pay4 (View.ld x0 rKeys)) (k0_pay5 (F := F)) (k0_pay6 (View.ld x0 rKeys))
    (k0_pay8 (View.ld x0 rKeys) (View.ld x1 rRows)) (k0_pay10 (View.ld x0 rKeys) (View.ld x1 rRows)) (View.ld x2 rRows)

/-- The new usage of rows 4096–8191, [1,1,4096]. -/
def payUseHi (x0 : Vec F S1x8x128 .f32) (x1 x2 : Vec F S1x4096x128 .f32) (x3 : Vec F S1x1x8192 .f32) : Vec F S1x1x4096 .f32 :=
  k0_pay1 (k0_pay16 (k0_pay3 (View.ld x3 rUse)))
    (k0_pay17 (k0_pay4 (View.ld x0 rKeys)) (k0_pay5 (F := F)) (k0_pay6 (View.ld x0 rKeys)) (k0_pay10 (View.ld x0 rKeys) (View.ld x1 rRows)) (View.ld x2 rRows))

/-- The read buffer after the body: its one store. -/
def outRead (x0 : Vec F S1x8x128 .f32) (x1 x2 : Vec F S1x4096x128 .f32) : Vec F S1x8x128 .f32 :=
  View.canon [⟨rKeys, payRead x0 x1 x2⟩]

/-- The usage buffer after the body: its two stores, the later one first. -/
def outUse (x0 : Vec F S1x8x128 .f32) (x1 x2 : Vec F S1x4096x128 .f32) (x3 : Vec F S1x1x8192 .f32) : Vec F S1x1x8192 .f32 :=
  View.canon [⟨rUseHi, payUseHi x0 x1 x2 x3⟩, ⟨rUseLo, payUseLo x0 x1 x2 x3⟩]

/-- The one store of the read covers its buffer. -/
theorem coverRead (p0 : Vec F S1x8x128 .f32) (y : S1x8x128.Idx) :
    ∃ pc ∈ ([⟨rKeys, p0⟩] : List (View.Piece (Elt F) S1x8x128 .f32)), y ∈ pc.1.set :=
  View.cover_of_tiled [⟨rKeys, p0⟩] S1x8x128.size (by rfl) y

/-- The two stores of the usage tile its buffer. -/
theorem coverUse (p0 p1 : Vec F S1x1x4096 .f32) (y : S1x1x8192.Idx) :
    ∃ pc ∈ ([⟨rUseHi, p0⟩, ⟨rUseLo, p1⟩] : List (View.Piece (Elt F) S1x1x8192 .f32)), y ∈ pc.1.set :=
  View.cover_of_tiled [⟨rUseHi, p0⟩, ⟨rUseLo, p1⟩] S1x1x4096.size (by rfl) y

/-! ## The body's triple -/

set_option maxHeartbeats 4000000 in
/-- The body on whole staging buffers — the four inputs at contents `x0 … x3`, the two result buffers at anything —
    runs to its end holding the inputs as they were, the read buffer at `outRead` and the usage buffer at `outUse`
    of the inputs. -/
theorem sound_kernel (c : Dev nD) (E : Set ℕ) (i : grid0.Coords)
    (arg1 : Memref sig .tc .vmem S1x8x128 .f32) (harg1 : arg1.IsWhole) (arg2 : Memref sig .tc .vmem S1x4096x128 .f32) (harg2 : arg2.IsWhole)
    (arg3 : Memref sig .tc .vmem S1x4096x128 .f32) (harg3 : arg3.IsWhole) (arg4 : Memref sig .tc .vmem S1x1x8192 .f32) (harg4 : arg4.IsWhole)
    (arg5 : Memref sig .tc .vmem S1x8x128 .f32) (harg5 : arg5.IsWhole) (arg6 : Memref sig .tc .vmem S1x1x8192 .f32) (harg6 : arg6.IsWhole)
    (x0 : Vec F S1x8x128 .f32) (x1 x2 : Vec F S1x4096x128 .f32) (x3 : Vec F S1x1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outRead x0 x1 x2)
            ∗ owns (c : Thread nD τ) arg6 fullShare (outUse x0 x1 x2 x3)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRead _)
  iexists _; isplitr
  swap; · iexact H5
  ipureintro
  exact View.read_writes_eq_canon _ _ _ (coverUse _ _)

end Cert.Kernel.Attn

end
-- ==== Proof.AttnRunBits.lean ====
/-
  The attention-read program run whole: one host reshape of the usage [32,8192] → [32,1,8192], the kernel at the 32
  batches, one host reshape of the new usage back to [32,8192].

  The kernel's six windows are the keys' block of batch `t`, the LOWER and the UPPER half of batch `t`'s memory rows
  — two windows on ONE array, each holding half of the array's share —, the usage row, and the two results' blocks.
  At every batch the four inputs are fetched, the body runs, and the two results are written back; nothing is carried
  from one batch to the next.  So after the run each result array holds, block by block, what the body stored at that
  batch, the three argument arrays are as they were, and the reshaped new usage is the reshape of the kernel's.
-/
import proofs.«113234_g16999480558224_cont_week2b_405_14_alg».proof.Proof.AttnBodyBits

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: after the first reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the first reshape, the region, and the second reshape as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The first reshape writes none of the three arguments: the region finds each as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hb))

/-! ## The windows' blocks -/

/-- Window `w`'s block at batch `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every batch, for any proof data whose array is the region-entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The one pipeline on core `c`: the arrays as the region finds them; after the body at batch `t` each input's buffer at
    its block and each result's at what the body stored from the input blocks; nothing carried between batches, nothing
    owed; the memory's array shared in halves between the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRead (iblk m c 0 t) (iblk m c 1 t) (iblk m c 2 t)
    | ⟨5, _⟩ => outUse (iblk m c 0 t) (iblk m c 1 t) (iblk m c 2 t) (iblk m c 3 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outRead (iblk m c 0 t) (iblk m c 1 t) (iblk m c 2 t) := by dsimp only [dats]
theorem after5 (c : Dev nD) (t : Fin cfg0.N) : (dats m 0 c).after 5 t = outUse (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at any batch -/

/-- What the body is called with at batch `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any batch: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every batch. -/
theorem body_obligation (c : Dev nD) : BodyObligation (dats (F := F) m 0 c) (defs₀ (F := F)) Variants.none () Set.univ := fun t => by
  rw [bigSep_W0, bigSep_W0]
  exact sound_body m c t

end Cert.Kernel.Attn

end
-- ==== Proof.AttnLaunchBits.lean ====
/-
  The launch of the attention-read program: from any memory, every weakly fair execution ends, with each window's array
  at what the write-backs left, the usage argument untouched and the reshaped new usage computed from the kernel's.

  Two windows read ONE array (the memory): the array's full share is dealt to them in halves at the region's entry and the
  halves are rejoined when the final state is read.  The reshape after the region reads the kernel's second result, which
  the region returns at the full share, and writes a buffer no window touches.
-/
import proofs.«113234_g16999480558224_cont_week2b_405_14_alg».proof.Proof.AttnRunBits

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The proof data's arrays are, window by window: the keys whole, the memory's two halves of its share, the reshaped
    usage whole, and the two results whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0) ∗ (((c.tc : Thread nD τ).loc main_arg1) ↦{fullShare.left} G 1)
          ∗ (((c.tc : Thread nD τ).loc main_arg1) ↦{fullShare.right} G 2) ∗ (((c.tc : Thread nD τ).loc main_v0) ↦{fullShare} G 3)
          ∗ (((c.tc : Thread nD τ).loc main_v1_0) ↦{fullShare} G 4) ∗ (((c.tc : Thread nD τ).loc main_v1_1) ↦{fullShare} G 5)) := by
  unfold Dat.arrays
  rw [bigSep_W0]
  rw [(arr_whole0 0).set_eq_univ, (arr_whole0 1).set_eq_univ, (arr_whole0 3).set_eq_univ,
    (arr_whole0 4).set_eq_univ, (arr_whole0 5).set_eq_univ]
  rfl

/-- The distinct buffers behind the windows: five, the memory behind two windows. -/
theorem arrRefs_eq : Finset.univ.image (Pipeline.arrRef spec0) = [main_arg0, main_arg1, main_v0, main_v1_0, main_v1_1].toFinset := by decide

/-- At the region's entry the five buffers, each whole at the full share, are the six windows' arrays: the memory's share
    dealt in halves to the two windows on it. -/
theorem entry_split (c : Dev nD) :
    (Pipeline.arrBufs spec0 c (V m c) : sProp 𝕄) ⊢ (dats m 0 c).arrays ((dats m 0 c).arrAt · 0) := by
  rw [arrays_chain]
  unfold Pipeline.arrBufs
  rw [bigSep_eq_bigSepL_of_eq _ arrRefs_eq (by decide)]
  show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0) ∗ (((c.tc : Thread nD τ).loc main_v1_0) ↦{fullShare} V m c main_v1_0)
      ∗ (((c.tc : Thread nD τ).loc main_v1_1) ↦{fullShare} V m c main_v1_1)) ⊢ _
  iintro ⟨H0, H1, H3, H4, H5⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  iexact H5

/-! ## The reshape after the region -/

/-- Of the six windows only the last is on the new usage's array. -/
theorem withArrays_use (c : Dev nD) (Vv : Valuation τ sig (Elt F))
    (A : (w : Fin cfg0.W) → Buf (Elt F) ((spec0 w).arr.view.loc (c.tc : Thread nD τ))) :
    Pipeline.withArrays spec0 c Vv A (Proc.devRef .tc main_v1_1) = A 5 := by
  unfold Pipeline.withArrays
  have h : ∃ w', Proc.devRef .tc (Pipeline.arrRef spec0 w') = Proc.devRef (τ := τ) .tc main_v1_1 := ⟨5, rfl⟩
  rw [dif_pos h]
  suffices ∀ (w' : Fin 6) (e : Proc.devRef .tc (Pipeline.arrRef spec0 w') = Proc.devRef (τ := τ) .tc main_v1_1),
      cast (congrArg (fun b' : DevRef τ sig => b'.ty.Contents (Elt F)) e) (A w') = A 5 from this _ h.choose_spec
  intro w' e
  obtain rfl : w' = 5 := (by decide : ∀ w' : Fin 6, Pipeline.arrRef spec0 w' = main_v1_1 → w' = 5) w' (Proc.devRef_injective _ e)
  rfl

/-- The buffers' contents when the region is left: each window's array as the write-backs left it, the rest as at entry. -/
abbrev Wx (c : Dev nD) : Valuation τ sig (Elt F) :=
  Pipeline.withArrays spec0 c (V0 m c) fun w => (dats m 0 c).arrAt w cfg0.N

/-- The buffers' contents at the end: after the second reshape. -/
abbrev Wend (c : Dev nD) (b : Ref sig .tc) : Buf (Elt F) ((c.tc : Thread nD τ).loc b) :=
  Pipeline.afterTail₀ cfgs (dats m) 0 (V0 m) [hostOps1] c b

theorem Wend_eq (c : Dev nD) (b : Ref sig .tc) : Wend m c b = StableHlo.after hostOps1 (Wx m c) (Proc.devRef .tc b) := rfl

/-- The second reshape does not write the usage argument, which no window touches: it ends as the region found it. -/
theorem Wend_arg2 (c : Dev nD) : Wend m c main_arg2 = V m c main_arg2 := by
  rw [Wend_eq]
  rw [StableHlo.after_of_forall_not_mem (b := Proc.devRef .tc main_arg2) _ _ (List.forall_iff_forall_mem.mp (by
      simp only [hostOps1, List.Forall, StableHlo.reshape_writes, Finset.mem_singleton]
      exact StableHlo.devRef_ne_of_ne (by decide)))]
  exact Pipeline.withArrays_of_ne _ c (V0 m c) _ main_arg2 (by exact (by decide : ∀ w, Pipeline.arrRef spec0 w ≠ main_arg2))

/-- Nor the new usage's array it reads. -/
theorem Wend_use (c : Dev nD) : Wend m c main_v1_1 = (dats m 0 c).arrAt 5 cfg0.N := by
  rw [Wend_eq]
  rw [StableHlo.after_of_forall_not_mem (b := Proc.devRef .tc main_v1_1) _ _ (List.forall_iff_forall_mem.mp (by
      simp only [hostOps1, List.Forall, StableHlo.reshape_writes, Finset.mem_singleton]
      exact StableHlo.devRef_ne_of_ne (by decide)))]
  exact withArrays_use c _ _

/-- The two buffers the second reshape touches, held whole. -/
theorem held_pair (c : Dev nD) (W : Valuation τ sig (Elt F)) :
    (StableHlo.held (c.tc : Thread nD τ) ({Proc.devRef .tc main_v1_1, Proc.devRef .tc main_v2} : Finset (DevRef τ sig)) W : sProp 𝕄)
      = iprop((((c.tc : Thread nD τ).loc main_v1_1) ↦{fullShare} W (Proc.devRef .tc main_v1_1))
          ∗ (((c.tc : Thread nD τ).loc main_v2) ↦{fullShare} W (Proc.devRef .tc main_v2))) := by
  unfold StableHlo.held
  rw [bigSep_insert (Finset.mem_singleton.not.mpr (StableHlo.devRef_ne_of_ne (by decide))), BI.bigSep_singleton]
  rfl

/-- The second reshape, run from the region's exit: it takes the new usage's array (whole, as the last window returns it)
    and the buffer it writes out of the bypassing rest, and hands the arrays back as they were and the rest at its contents
    after the reshape. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (Wend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq, arrays_chain, Wend_arg2]
  rw [Pipeline.chain_cons, Pipeline.chain_nil]
  iintro ⟨Hk, Hb, ⟨A0, A1, A2, A3, A4, A5⟩, ⟨R2, Rv⟩⟩
  ihave Hh := (show iprop((((c.tc : Thread nD τ).loc main_v1_1) ↦{fullShare} (dats m 0 c).arrAt 5 cfg0.N)
        ∗ (((c.tc : Thread nD τ).loc main_v2) ↦{fullShare} V m c main_v2))
      ⊢ (StableHlo.held (c.tc : Thread nD τ) ({Proc.devRef .tc main_v1_1, Proc.devRef .tc main_v2} : Finset (DevRef τ sig)) (Wx m c) : sProp 𝕄) from by
        rw [held_pair, show Wx m c (Proc.devRef .tc main_v1_1) = (dats m 0 c).arrAt 5 cfg0.N from withArrays_use c _ _,
          show Wx m c (Proc.devRef .tc main_v2) = V m c main_v2 from
            Pipeline.withArrays_of_ne _ c (V0 m c) _ main_v2 (by exact (by decide : ∀ w, Pipeline.arrRef spec0 w ≠ main_v2))]) $$ [A5 Rv]
  · isplitl [A5]; · iexact A5
    iexact Rv
  iapply (StableHlo.wp_seq (Variants.lift Variants.none) none Set.univ c ({Proc.devRef .tc main_v1_1, Proc.devRef .tc main_v2} : Finset (DevRef τ sig)) _ hostOps1
    (by intro op hop; simp only [hostOps1, List.mem_cons, List.mem_nil_iff, _root_.or_false] at hop; subst hop; exact subset_of_eq (StableHlo.reshape_bufs ..))
    (fun op hop => (List.forall_iff_forall_mem.mp hostOps1_fresh) op hop) (Wx m c)) $$ [Hb Hh]
  · isplitl [Hb]; · iexact Hb
    iexact Hh
  iintro ⟨Hb, Hh⟩
  rw [wp_pure]
  imodintro
  iapply Hk
  ihave Hp := (show (StableHlo.held (c.tc : Thread nD τ) ({Proc.devRef .tc main_v1_1, Proc.devRef .tc main_v2} : Finset (DevRef τ sig)) (StableHlo.after hostOps1 (Wx m c)) : sProp 𝕄)
      ⊢ iprop((((c.tc : Thread nD τ).loc main_v1_1) ↦{fullShare} (dats m 0 c).arrAt 5 cfg0.N)
        ∗ (((c.tc : Thread nD τ).loc main_v2) ↦{fullShare} Wend m c main_v2)) from by
        rw [held_pair, ← Wend_eq, ← Wend_eq, Wend_use]) $$ Hh
  icases Hp with ⟨A5, Rv⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R2]; · iexact R2
  iexact Rv

/-! ## The run -/

-- the launch theorem's implicit arguments are found by unifying its conclusion with this one, which takes unfolding plain
-- definitions in a metavariable's type
set_option backward.isDefEq.respectTransparency.types false in
/-- From any memory with zero counters every weakly fair execution of the program on the TensorCores terminates, and every
    final state has each window's array at what the write-backs left and every other unscoped buffer at its contents after
    the second reshape. -/
theorem run_main : θ_run defs (onTc (τ := τ) (main (F := F))) (s₀ m ρ) (Pipeline.FramePost cfgs (dats m) 0 (Wend m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT Pipeline.Prefetch.none (fun k => k.elim0) c) by
      unfold Pipeline.ΦA Pipeline.ΦT; iintro ⟨Hp, Ht, Hr⟩
      isplitr [Ht]
      · isplitl [Hr] <;> iassumption
      · iexact Ht).trans (show _ ⊢ Pipeline.ΦA spec0 c from by iintro ⟨H, -⟩; iexact H))
    (hout := fun c => by
      rw [Pipeline.ownSems0_none]
      show Pipeline.ΦA spec0 c ⊢ _
      unfold Pipeline.ΦA
      iintro ⟨Hr, Hp⟩
      isplitl [Hp]; · iexact Hp
      isplitr; · iempintro
      iexact Hr)
    (htail := fun c Q' => tail_run m c Q')
    (QY := fun c s => ∀ b ∈ Pipeline.restRefsP sig Pipeline.Prefetch.none spec0, s.mem ((c.tc : Thread nD τ).loc b) = Wend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wend m c) s')
      isplitl [HU] <;> iassumption)
    (hQ := fun s h c => ⟨(h c).1, fun b hb => (h c).2.2 b (Finset.mem_sdiff.mpr ⟨hb, fun hk => by
      obtain ⟨k, -, -⟩ := Finset.mem_image.mp hk; exact k.elim0⟩)⟩)

/-! ## What the final state holds -/

/-- The three argument arrays end as they were launched: the keys and the memory are only read through their windows, the
    usage argument is touched by no window and written by no reshape. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_arg m c main_arg0 (by decide)))),
     ((h c).1 1).trans (((dats m 0 c).arrAt_in 1 rfl _).trans ((A_eq m c 1).trans (V_arg m c main_arg1 (by decide)))),
     ((h c).2 main_arg2 (Pipeline.mem_restRefs_of main_arg2 (by decide) (by decide))).trans
       ((Wend_arg2 m c).trans (V_arg m c main_arg2 (by decide)))⟩) (run_main m ρ)

/-- The run with its two results named: the read is the fifth window's array after the last write-back, the new usage the
    second reshape's result; the arguments end as launched. -/
theorem run_named : θ_run defs (onTc (τ := τ) (main (F := F))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v2) = Wend m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 4,
     (h c).2 main_v2 (Pipeline.mem_restRefs_of main_v2 (by decide) (by decide)),
     ((h c).1 0).trans (((dats m 0 c).arrAt_in 0 rfl _).trans ((A_eq m c 0).trans (V_arg m c main_arg0 (by decide)))),
     ((h c).1 1).trans (((dats m 0 c).arrAt_in 1 rfl _).trans ((A_eq m c 1).trans (V_arg m c main_arg1 (by decide)))),
     ((h c).2 main_arg2 (Pipeline.mem_restRefs_of main_arg2 (by decide) (by decide))).trans
       ((Wend_arg2 m c).trans (V_arg m c main_arg2 (by decide)))⟩) (run_main m ρ)

end Cert.Kernel.Attn

end
-- ==== Proof.Spec.lean ====
/-
  The mathematics of one attention read of a memory with a usage update, over the real numbers.

  For a batch `b`, keys `K b k ·` (8 keys of dimension 128), memory rows `M b s ·` (8192 rows of
  dimension 128) and a usage vector `U b ·`:

  * the similarity of key `k` and row `s` is the cosine-like quotient
    `⟨K b k, M b s⟩ · kn b k · mn b s · 5`, with `kn = 1 / (ε + ‖K b k‖)`, `mn = 1 / (ε + ‖M b s‖)`
    (`ε` the binary32 number nearest 10⁻³⁰);
  * the attention of key `k` is the softmax of its similarities over the rows;
  * the read is the attention-weighted sum of the rows, and the new usage adds, to each row's usage,
    the attention the eight keys gave it.

  Two arrangements of this are written out.  The SHIFTED one subtracts the largest similarity before
  exponentiating and divides each weight by the sum of the weights; the UNSHIFTED one exponentiates the
  similarities as they are, sums the weights and the weighted rows over the two halves of the memory
  (rows 0–4095 and 4096–8191) separately, and multiplies by the reciprocal of the summed weights at the
  end.  They are equal (`Cert.SpecLaw`): `exp (x - c) = exp x · exp (-c)` and the factor `exp (-c)`
  cancels between a weight and the sum of the weights.
-/
import Idealize.ShloMosaic.PureOps.Ideal

noncomputable section

namespace Cert.Spec

/-- The binary32 number nearest 10⁻³⁰: `10633824 · 2⁻¹²³`. -/
def eps : ℝ := 10633824 * (2 : ℝ) ^ (-123 : ℤ)

theorem eps_pos : 0 < eps := by unfold eps; positivity

/-- Row `s` of the lower half of the memory, and of the upper half, among all 8192 rows. -/
def lo (s : Fin 4096) : Fin 8192 := ⟨s.val, by omega⟩
def hi (s : Fin 4096) : Fin 8192 := ⟨s.val + 4096, by omega⟩

variable (K : Fin 32 → Fin 8 → Fin 128 → ℝ) (M : Fin 32 → Fin 8192 → Fin 128 → ℝ) (U : Fin 32 → Fin 8192 → ℝ)

/-- `⟨K b k, M b s⟩`. -/
def dotKM (b : Fin 32) (k : Fin 8) (s : Fin 8192) : ℝ := ∑ d : Fin 128, K b k d * M b s d

/-- `1 / (ε + ‖K b k‖)`. -/
def kn (b : Fin 32) (k : Fin 8) : ℝ := 1 / (eps + Real.sqrt (∑ d : Fin 128, K b k d * K b k d))

/-- `1 / (ε + ‖M b s‖)`. -/
def mn (b : Fin 32) (s : Fin 8192) : ℝ := 1 / (eps + Real.sqrt (∑ d : Fin 128, M b s d * M b s d))

/-! ## The unshifted arrangement, summed over the two halves of the memory -/

/-- The similarity, the scale folded into the key's factor. -/
def simU (b : Fin 32) (k : Fin 8) (s : Fin 8192) : ℝ := dotKM K M b k s * (kn K b k * 5) * mn M b s

/-- The unnormalised weight. -/
def wU (b : Fin 32) (k : Fin 8) (s : Fin 8192) : ℝ := Real.exp (simU K M b k s)

/-- The sum of the weights of key `k`: the lower half's plus the upper half's. -/
def denU (b : Fin 32) (k : Fin 8) : ℝ := (∑ s : Fin 4096, wU K M b k (lo s)) + (∑ s : Fin 4096, wU K M b k (hi s))

/-- Its reciprocal. -/
def invU (b : Fin 32) (k : Fin 8) : ℝ := 1 / denU K M b k

/-- The read: the weighted rows summed over each half, added, and normalised at the end. -/
def readU (b : Fin 32) (k : Fin 8) (d : Fin 128) : ℝ :=
  ((∑ s : Fin 4096, wU K M b k (lo s) * M b (lo s) d) + (∑ s : Fin 4096, wU K M b k (hi s) * M b (hi s) d)) * invU K M b k

/-- The new usage of row `s`. -/
def usageU (b : Fin 32) (s : Fin 8192) : ℝ := U b s + ∑ k : Fin 8, wU K M b k s * invU K M b k

/-! ## The shifted arrangement (the softmax as it is usually computed) -/

/-- The similarity, scaled last. -/
def simS (b : Fin 32) (k : Fin 8) (s : Fin 8192) : ℝ := dotKM K M b k s * kn K b k * mn M b s * 5

/-- The largest similarity of key `k` over the rows. -/
def maxS (b : Fin 32) (k : Fin 8) : ℝ := Finset.univ.sup' Finset.univ_nonempty (fun s : Fin 8192 => simS K M b k s)

/-- The shifted weight. -/
def wS (b : Fin 32) (k : Fin 8) (s : Fin 8192) : ℝ := Real.exp (simS K M b k s - maxS K M b k)

/-- The sum of the shifted weights. -/
def denS (b : Fin 32) (k : Fin 8) : ℝ := ∑ s : Fin 8192, wS K M b k s

/-- The attention. -/
def attS (b : Fin 32) (k : Fin 8) (s : Fin 8192) : ℝ := wS K M b k s / denS K M b k

/-- The read. -/
def readS (b : Fin 32) (k : Fin 8) (d : Fin 128) : ℝ := ∑ s : Fin 8192, attS K M b k s * M b s d

/-- The new usage of row `s`. -/
def usageS (b : Fin 32) (s : Fin 8192) : ℝ := U b s + ∑ k : Fin 8, attS K M b k s

end Cert.Spec

end
-- ==== Proof.Coords.lean ====
/-
  Arrays of extended reals and real functions of coordinates.

  An input array whose entries are all real numbers is the array of a real function of its coordinates
  (`arr3 (Kof a) = a`); the specification (`Cert.Spec`) is written over such functions, and both
  programs' results are arrays of this form.
-/
import Idealize.ShloMosaic.Lib.ValueIdx

noncomputable section

namespace Cert.Coords

open Idealize.ShloMosaic Idealize.ShloMosaic.ValueIdx

/-- The array of a real function of three coordinates. -/
def arr3 {n0 n1 n2 : Nat} (f : Fin n0 → Fin n1 → Fin n2 → ℝ) : (⟨3, ![n0, n1, n2]⟩ : Shape).Idx → EReal :=
  fun i => ((f (i 0) (i 1) (i 2) : ℝ) : EReal)

/-- The array of a real function of two coordinates. -/
def arr2 {n0 n1 : Nat} (f : Fin n0 → Fin n1 → ℝ) : (⟨2, ![n0, n1]⟩ : Shape).Idx → EReal :=
  fun i => ((f (i 0) (i 1) : ℝ) : EReal)

/-- The real coordinate function of a rank-3 array (its entries' real parts). -/
def of3 {n0 n1 n2 : Nat} (a : (⟨3, ![n0, n1, n2]⟩ : Shape).Idx → EReal) (x : Fin n0) (y : Fin n1) (z : Fin n2) : ℝ :=
  (a (ix3 x y z)).toReal

/-- The real coordinate function of a rank-2 array. -/
def of2 {n0 n1 : Nat} (a : (⟨2, ![n0, n1]⟩ : Shape).Idx → EReal) (x : Fin n0) (y : Fin n1) : ℝ :=
  (a (ix2 x y)).toReal

/-- Every entry is a real number. -/
def AllReal {ι : Type} (a : ι → EReal) : Prop := ∀ i, ∃ r : ℝ, a i = (r : EReal)

@[simp] theorem arr3_apply {n0 n1 n2 : Nat} (f : Fin n0 → Fin n1 → Fin n2 → ℝ) (x : Fin n0) (y : Fin n1) (z : Fin n2) :
    arr3 f (ix3 x y z) = ((f x y z : ℝ) : EReal) := rfl

@[simp] theorem arr2_apply {n0 n1 : Nat} (f : Fin n0 → Fin n1 → ℝ) (x : Fin n0) (y : Fin n1) :
    arr2 f (ix2 x y) = ((f x y : ℝ) : EReal) := rfl

/-- An all-real rank-3 array is the array of its coordinate function. -/
theorem arr3_of3 {n0 n1 n2 : Nat} {a : (⟨3, ![n0, n1, n2]⟩ : Shape).Idx → EReal} (h : AllReal a) : arr3 (of3 a) = a := by
  funext i
  obtain ⟨x, y, z, rfl⟩ : ∃ (x : Fin n0) (y : Fin n1) (z : Fin n2), i = ix3 x y z := ⟨i 0, i 1, i 2, eq_ix3 i⟩
  obtain ⟨r, hr⟩ := h (ix3 x y z)
  show (((a (ix3 x y z)).toReal : ℝ) : EReal) = a (ix3 x y z)
  rw [hr, EReal.toReal_coe]

/-- An all-real rank-2 array is the array of its coordinate function. -/
theorem arr2_of2 {n0 n1 : Nat} {a : (⟨2, ![n0, n1]⟩ : Shape).Idx → EReal} (h : AllReal a) : arr2 (of2 a) = a := by
  funext i
  obtain ⟨x, y, rfl⟩ : ∃ (x : Fin n0) (y : Fin n1), i = ix2 x y := ⟨i 0, i 1, eq_ix2 i⟩
  obtain ⟨r, hr⟩ := h (ix2 x y)
  show (((a (ix2 x y)).toReal : ℝ) : EReal) = a (ix2 x y)
  rw [hr, EReal.toReal_coe]

/-- An entry of an all-real rank-3 array, at coordinates. -/
theorem at3 {n0 n1 n2 : Nat} {a : (⟨3, ![n0, n1, n2]⟩ : Shape).Idx → EReal} (h : AllReal a) (x : Fin n0) (y : Fin n1) (z : Fin n2) :
    a (ix3 x y z) = ((of3 a x y z : ℝ) : EReal) := by
  obtain ⟨r, hr⟩ := h (ix3 x y z)
  simp only [of3, hr, EReal.toReal_coe]

/-- An entry of an all-real rank-2 array, at coordinates. -/
theorem at2 {n0 n1 : Nat} {a : (⟨2, ![n0, n1]⟩ : Shape).Idx → EReal} (h : AllReal a) (x : Fin n0) (y : Fin n1) :
    a (ix2 x y) = ((of2 a x y : ℝ) : EReal) := by
  obtain ⟨r, hr⟩ := h (ix2 x y)
  simp only [of2, hr, EReal.toReal_coe]

end Cert.Coords

end
-- ==== Proof.AttnBlocks.lean ====
/-
  The kernel's input blocks, entry by entry.

  At batch `t` the six windows sit at block index `(t, 0, 0)`, but for the upper half of the memory rows, which
  sits at `(t, 1, 0)`.  So the keys' block holds the keys of batch `t`, the two rows' blocks hold rows 0–4095 and
  rows 4096–8191 of batch `t`'s memory, and the usage block holds batch `t`'s row of the usage recast to
  [32,1,8192], which is the usage argument at `(t, s)`: the recast keeps the row-major order.
-/
import proofs.«113234_g16999480558224_cont_week2b_405_14_alg».proof.Proof.Spec
import proofs.«113234_g16999480558224_cont_week2b_405_14_alg».proof.Proof.Coords
import proofs.«113234_g16999480558224_cont_week2b_405_14_alg».proof.Proof.AttnRun
import Idealize.ShloMosaic.Lib.Pipeline.Value
import Idealize.ShloMosaic.Lib.StableHlo.Run
import Idealize.ShloMosaic.Lib.ValueIdx

set_option maxRecDepth 16384

noncomputable section

namespace Cert.KernelIdeal.AttnBlocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Attn Cert.Coords Cert.Spec

variable (m : (ℓ : Loc nD τ sig) → Buf (Elt Ideal) ℓ)

/-- The batch a grid point works on. -/
def batch (t : Fin cfg0.N) : Fin 32 := ⟨t.val, by have h := t.isLt; have e : cfg0.N = 32 := N_0; omega⟩

/-- The printed index maps over the grid: every window's block index is the batch on the first axis; on the
    second it is 1 for the upper half of the memory rows and 0 otherwise; on the third it is 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 1 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-! ## Each input block, entry by entry, in the argument arrays -/

/-- The keys' block at batch `t` is the keys of batch `t`. -/
theorem iblk0_at (c : Dev nD) (t : Fin cfg0.N) (k : Fin 8) (d : Fin 128) :
    (iblk m c 0 t : Vec Ideal S1x8x128 .f32) (ix3 (0 : Fin 1) k d)
      = (m ((c.tc : Thread nD τ).loc main_arg0) : S32x8x128.Idx → EReal) (ix3 (batch t) k d) := by
  obtain ⟨⟨e0, e1, e2⟩, -⟩ := idx_facts t
  unfold iblk
  rw [View.read_apply]
  show V m c main_arg0 _ = _
  rw [V_arg m c main_arg0 (by decide)]
  congr 1
  funext a
  apply Fin.ext
  match a with
  | ⟨0, _⟩ => show win0_0.index t (0 : Fin 3) * 1 + 1 * 0 = t.val; omega
  | ⟨1, _⟩ => show win0_0.index t (1 : Fin 3) * 8 + 1 * k.val = k.val; omega
  | ⟨2, _⟩ => show win0_0.index t (2 : Fin 3) * 128 + 1 * d.val = d.val; omega

/-- The lower rows' block at batch `t` is rows 0–4095 of batch `t`'s memory. -/
theorem iblk1_at (c : Dev nD) (t : Fin cfg0.N) (s : Fin 4096) (d : Fin 128) :
    (iblk m c 1 t : Vec Ideal S1x4096x128 .f32) (ix3 (0 : Fin 1) s d)
      = (m ((c.tc : Thread nD τ).loc main_arg1) : S32x8192x128.Idx → EReal) (ix3 (batch t) (lo s) d) := by
  obtain ⟨-, ⟨e0, e1, e2⟩, -⟩ := idx_facts t
  unfold iblk
  rw [View.read_apply]
  show V m c main_arg1 _ = _
  rw [V_arg m c main_arg1 (by decide)]
  congr 1
  funext a
  apply Fin.ext
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 128 + 1 * d.val = d.val; omega

/-- The upper rows' block at batch `t` is rows 4096–8191 of batch `t`'s memory. -/
theorem iblk2_at (c : Dev nD) (t : Fin cfg0.N) (s : Fin 4096) (d : Fin 128) :
    (iblk m c 2 t : Vec Ideal S1x4096x128 .f32) (ix3 (0 : Fin 1) s d)
      = (m ((c.tc : Thread nD τ).loc main_arg1) : S32x8192x128.Idx → EReal) (ix3 (batch t) (hi s) d) := by
  obtain ⟨-, -, ⟨e0, e1, e2⟩, -⟩ := idx_facts t
  unfold iblk
  rw [View.read_apply]
  show V m c main_arg1 _ = _
  rw [V_arg m c main_arg1 (by decide)]
  congr 1
  funext a
  apply Fin.ext
  match a with
  | ⟨0, _⟩ => show win0_2.index t (0 : Fin 3) * 1 + 1 * 0 = t.val; omega
  | ⟨1, _⟩ => show win0_2.index t (1 : Fin 3) * 4096 + 1 * s.val = s.val + 4096; omega
  | ⟨2, _⟩ => show win0_2.index t (2 : Fin 3) * 128 + 1 * d.val = d.val; omega

/-- The usage the region finds is the usage argument recast to [32,1,8192]. -/
theorem V_usage (c : Dev nD) :
    (V m c main_v0 : S32x1x8192.Idx → EReal)
      = shapeCast S32x1x8192 (m ((c.tc : Thread nD τ).loc main_arg2)) shapeCasts_S32x8192_S32x1x8192 := by
  show StableHlo.after hostOps0 (fun b => m (c, b)) (Proc.devRef .tc main_v0) = _
  after_results
  rfl

/-- The recast usage at `(b, 0, s)` is the usage argument at `(b, s)`. -/
theorem V_usage_at (c : Dev nD) (b : Fin 32) (s : Fin 8192) :
    (V m c main_v0 : S32x1x8192.Idx → EReal) (ix3 b (0 : Fin 1) s)
      = (m ((c.tc : Thread nD τ).loc main_arg2) : S32x8192.Idx → EReal) (ix2 b s) := by
  rw [V_usage]
  refine shapeCast_apply _ _ _ _ ?_
  show (S32x8192.rowMajor (ix2 b s)).val = (S32x1x8192.rowMajor (ix3 b (0 : Fin 1) s)).val
  rw [Shape.rowMajor_val_two, Shape.rowMajor_val_three]
  show b.val * 8192 + s.val = (b.val * 1 + 0) * 8192 + s.val
  omega

/-- The usage block at batch `t` is batch `t`'s usage row. -/
theorem iblk3_at (c : Dev nD) (t : Fin cfg0.N) (s : Fin 8192) :
    (iblk m c 3 t : Vec Ideal S1x1x8192 .f32) (ix3 (0 : Fin 1) (0 : Fin 1) s)
      = (m ((c.tc : Thread nD τ).loc main_arg2) : S32x8192.Idx → EReal) (ix2 (batch t) s) := by
  obtain ⟨-, -, -, ⟨e0, e1, e2⟩, -⟩ := idx_facts t
  unfold iblk
  rw [View.read_apply]
  show V m c main_v0 _ = _
  rw [← V_usage_at m c (batch t) s]
  congr 1
  funext a
  apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 8192 + 1 * s.val = s.val; omega

/-! ## The same on all-real arguments: coercions of the arguments' real coordinate functions -/

section Real
variable (c : Dev nD)
  (h0 : AllReal (m ((c.tc : Thread nD τ).loc main_arg0)))
  (h1 : AllReal (m ((c.tc : Thread nD τ).loc main_arg1)))
  (h2 : AllReal (m ((c.tc : Thread nD τ).loc main_arg2)))

include h0 in
theorem keys_real (t : Fin cfg0.N) (k : Fin 8) (d : Fin 128) :
    (iblk m c 0 t : Vec Ideal S1x8x128 .f32) (ix3 (0 : Fin 1) k d)
      = ((of3 (m ((c.tc : Thread nD τ).loc main_arg0)) (batch t) k d : ℝ) : EReal) :=
  (iblk0_at m c t k d).trans (at3 h0 (batch t) k d)

include h1 in
theorem rowsLo_real (t : Fin cfg0.N) (s : Fin 4096) (d : Fin 128) :
    (iblk m c 1 t : Vec Ideal S1x4096x128 .f32) (ix3 (0 : Fin 1) s d)
      = ((of3 (m ((c.tc : Thread nD τ).loc main_arg1)) (batch t) (lo s) d : ℝ) : EReal) :=
  (iblk1_at m c t s d).trans (at3 h1 (batch t) (lo s) d)

include h1 in
theorem rowsHi_real (t : Fin cfg0.N) (s : Fin 4096) (d : Fin 128) :
    (iblk m c 2 t : Vec Ideal S1x4096x128 .f32) (ix3 (0 : Fin 1) s d)
      = ((of3 (m ((c.tc : Thread nD τ).loc main_arg1)) (batch t) (hi s) d : ℝ) : EReal) :=
  (iblk2_at m c t s d).trans (at3 h1 (batch t) (hi s) d)

include h2 in
theorem usage_real (t : Fin cfg0.N) (s : Fin 8192) :
    (iblk m c 3 t : Vec Ideal S1x1x8192 .f32) (ix3 (0 : Fin 1) (0 : Fin 1) s)
      = ((of2 (m ((c.tc : Thread nD τ).loc main_arg2)) (batch t) s : ℝ) : EReal) :=
  (iblk3_at m c t s).trans (at2 h2 (batch t) s)

end Real

end Cert.KernelIdeal.AttnBlocks

end
-- ==== Proof.LibFinite.lean ====
/-
  Real-valued extended reals.

  The extended reals `EReal = ℝ ∪ {⊥, ⊤}` are not a ring: distributivity fails at the
  infinities.  An algebraic identity between two extended-real expressions is therefore
  proved by first showing that every leaf is (the coercion of) a real number, and then
  computing in `ℝ`.  This file provides the predicate and its closure properties:

  * `IsReal x`   : `x` is the coercion of a real number (`isReal_iff`: equivalently
                    `x ≠ ⊤ ∧ x ≠ ⊥`); `AllReal v` : every entry of the family `v` is real
                    (`allReal_iff_exists`: `v` is the coercion of a real family).
  * `IsPosReal x`: `x` is the coercion of a positive real.
  * closure of `IsReal` under `0`, `1`, `+`, `-`, unary `-`, `*`, `max`, `min`,
    finite sums (`coe_finset_sum`: the coercion commutes with a finite sum), division by a
    nonzero real (`Ideal.div`), the reciprocal square root of a positive real
    (`Ideal.rsqrt`), and the pointwise versions for families (`AllReal`).
  * a sum of squares of reals is nonnegative; nonnegative + positive is positive.
-/
import Idealize.ShloMosaic.PureOps.Ideal

noncomputable section

namespace Cert.LibFinite

open Idealize.ShloMosaic
open scoped BigOperators

/-- An extended real is REAL when it is the coercion of a real number. -/
def IsReal (x : EReal) : Prop := ∃ r : ℝ, x = (r : EReal)

/-- An extended real is a POSITIVE REAL when it is the coercion of a positive real number. -/
def IsPosReal (x : EReal) : Prop := ∃ r : ℝ, 0 < r ∧ x = (r : EReal)

/-- Every entry of the family `v` is real. -/
def AllReal {ι : Sort*} (v : ι → EReal) : Prop := ∀ i, IsReal (v i)

/-- Every entry of the family `v` is a positive real. -/
def AllPosReal {ι : Sort*} (v : ι → EReal) : Prop := ∀ i, IsPosReal (v i)

/-! ### The predicate -/

/-- Real means: neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).mp h).1
theorem IsReal.ne_bot {x : EReal} (h : IsReal x) : x ≠ ⊥ := ((isReal_iff x).mp h).2

/-- A real extended real is the coercion of its own real part. -/
theorem IsReal.coe_toReal {x : EReal} (h : IsReal x) : ((x.toReal : ℝ) : EReal) = x :=
  EReal.coe_toReal h.ne_top h.ne_bot

theorem isReal_coe (r : ℝ) : IsReal (r : EReal) := ⟨r, rfl⟩
theorem isReal_zero : IsReal 0 := ⟨0, rfl⟩
theorem isReal_one : IsReal 1 := ⟨1, rfl⟩

theorem IsPosReal.isReal {x : EReal} (h : IsPosReal x) : IsReal x := let ⟨r, _, e⟩ := h; ⟨r, e⟩
theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem isPosReal_coe {r : ℝ} (h : 0 < r) : IsPosReal (r : EReal) := ⟨r, h, rfl⟩
/-- A real that is positive as an extended real is a positive real. -/
theorem IsReal.isPosReal {x : EReal} (h : IsReal x) (hp : 0 < x) : IsPosReal x := by
  obtain ⟨r, rfl⟩ := h; exact ⟨r, EReal.coe_pos.mp hp, rfl⟩

theorem AllPosReal.allReal {ι : Sort*} {v : ι → EReal} (h : AllPosReal v) : AllReal v := fun i => (h i).isReal

/-- A family is real exactly when it is the coercion of a family of reals. -/
theorem allReal_iff_exists {ι : Sort*} (v : ι → EReal) : AllReal v ↔ ∃ f : ι → ℝ, v = fun i => (f i : EReal) := by
  constructor
  · intro h; exact ⟨fun i => (v i).toReal, funext fun i => ((h i).coe_toReal).symm⟩
  · rintro ⟨f, rfl⟩ i; exact ⟨f i, rfl⟩

theorem allReal_coe {ι : Sort*} (f : ι → ℝ) : AllReal (fun i => (f i : EReal)) := fun i => ⟨f i, rfl⟩
theorem allReal_const {ι : Sort*} {c : EReal} (h : IsReal c) : AllReal (fun _ : ι => c) := fun _ => h
/-- Every entry of a reindexed family is an entry of the family. -/
theorem AllReal.comp {ι κ : Sort*} {v : ι → EReal} (h : AllReal v) (f : κ → ι) : AllReal (fun k => v (f k)) :=
  fun k => h (f k)

/-! ### Pointwise closure -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with `max` (it is monotone). -/
theorem coe_max (a b : ℝ) : ((max a b : ℝ) : EReal) = max (a : EReal) (b : EReal) :=
  (EReal.coe_strictMono.monotone).map_max
/-- The coercion commutes with `min`. -/
theorem coe_min (a b : ℝ) : ((min a b : ℝ) : EReal) = min (a : EReal) (b : EReal) :=
  (EReal.coe_strictMono.monotone).map_min

theorem IsReal.max {x y : EReal} (hx : IsReal x) (hy : IsReal y) : IsReal (max x y) := by
  obtain ⟨a, rfl⟩ := hx; obtain ⟨b, rfl⟩ := hy; exact ⟨Max.max a b, (coe_max a b).symm⟩
theorem IsReal.min {x y : EReal} (hx : IsReal x) (hy : IsReal y) : IsReal (min x y) := by
  obtain ⟨a, rfl⟩ := hx; obtain ⟨b, rfl⟩ := hy; exact ⟨Min.min a b, (coe_min a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩
/-- A nonnegative real plus a positive real is a positive real. -/
theorem IsPosReal.nonneg_add {x y : EReal} (hx : IsReal x) (hx0 : 0 ≤ x) (hy : IsPosReal y) : IsPosReal (x + y) := by
  obtain ⟨a, rfl⟩ := hx; obtain ⟨b, hb, rfl⟩ := hy
  exact ⟨a + b, add_pos_of_nonneg_of_pos (EReal.coe_nonneg.mp hx0) hb, (EReal.coe_add a b).symm⟩
/-- The maximum of a real and a positive real is a positive real. -/
theorem IsPosReal.max_right {x y : EReal} (hx : IsReal x) (hy : IsPosReal y) : IsPosReal (max x y) :=
  (hx.max hy.isReal).isPosReal (lt_of_lt_of_le hy.pos (le_max_right x y))
theorem IsPosReal.max_left {x y : EReal} (hx : IsPosReal x) (hy : IsReal y) : IsPosReal (max x y) :=
  (hx.isReal.max hy).isPosReal (lt_of_lt_of_le hx.pos (le_max_left x y))

/-- The square of a real extended real is nonnegative. -/
theorem IsReal.mul_self_nonneg {x : EReal} (hx : IsReal x) : 0 ≤ x * x := by
  obtain ⟨a, rfl⟩ := hx; rw [← EReal.coe_mul]; exact EReal.coe_nonneg.mpr (_root_.mul_self_nonneg a)

/-! ### Finite sums -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum over a real family is real. -/
theorem AllReal.sum {ι : Type*} {f : ι → EReal} (h : AllReal f) (s : Finset ι) : IsReal (∑ i ∈ s, f i) :=
  IsReal.sum s f fun i _ => h i

/-- A finite sum of products of two real families is real (a dot product). -/
theorem AllReal.sum_mul {ι : Type*} {f g : ι → EReal} (hf : AllReal f) (hg : AllReal g) (s : Finset ι) :
    IsReal (∑ i ∈ s, f i * g i) :=
  IsReal.sum s _ fun i _ => (hf i).mul (hg i)

/-- A finite sum of nonnegative extended reals is nonnegative. -/
theorem sum_nonneg {ι : Type*} (s : Finset ι) (f : ι → EReal) (h : ∀ i ∈ s, 0 ≤ f i) : 0 ≤ ∑ i ∈ s, f i :=
  Finset.sum_nonneg h

/-- A finite sum of squares of real extended reals is nonnegative. -/
theorem sum_mul_self_nonneg {ι : Type*} (s : Finset ι) {f : ι → EReal} (h : ∀ i ∈ s, IsReal (f i)) :
    0 ≤ ∑ i ∈ s, f i * f i :=
  Finset.sum_nonneg fun i hi => (h i hi).mul_self_nonneg

/-! ### Division and the reciprocal square root -/

/-- A real divided by a NONZERO real is real: `x / y = x * y⁻¹`. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb]
  exact (isReal_coe a).mul (isReal_coe _)

/-- The quotient of two reals, the divisor nonzero, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  rw [div_coe_coe a hb.ne']
  exact ⟨a / b, div_pos ha hb, rfl⟩

/-- The reciprocal square root of a positive real is `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  rw [rsqrt_coe_of_pos hr]
  exact ⟨_, inv_pos.mpr (Real.sqrt_pos.mpr hr), rfl⟩

/-! ### Families, pointwise -/

section Families
variable {ι : Sort*} {v w : ι → EReal}

theorem AllReal.add (hv : AllReal v) (hw : AllReal w) : AllReal (fun i => v i + w i) := fun i => (hv i).add (hw i)
theorem AllReal.sub (hv : AllReal v) (hw : AllReal w) : AllReal (fun i => v i - w i) := fun i => (hv i).sub (hw i)
theorem AllReal.mul (hv : AllReal v) (hw : AllReal w) : AllReal (fun i => v i * w i) := fun i => (hv i).mul (hw i)
theorem AllReal.neg (hv : AllReal v) : AllReal (fun i => -v i) := fun i => (hv i).neg
theorem AllReal.max (hv : AllReal v) (hw : AllReal w) : AllReal (fun i => Max.max (v i) (w i)) :=
  fun i => (hv i).max (hw i)
theorem AllReal.min (hv : AllReal v) (hw : AllReal w) : AllReal (fun i => Min.min (v i) (w i)) :=
  fun i => (hv i).min (hw i)
theorem AllReal.div (hv : AllReal v) (hw : AllReal w) (hw0 : ∀ i, w i ≠ 0) :
    AllReal (fun i => Ideal.div (v i) (w i)) := fun i => (hv i).div (hw i) (hw0 i)
theorem AllPosReal.rsqrt (hv : AllPosReal v) : AllPosReal (fun i => Ideal.rsqrt (v i)) := fun i => (hv i).rsqrt

end Families

end Cert.LibFinite

end
-- ==== Proof.LibFiniteLits.lean ====
/-
  The binary32 literals of a graph-network / normalisation pipeline, read as extended reals:
  each denotes a real number, and the two small ones a POSITIVE real.

  * `0x00000000` is `0`, `0x3F800000` is `1`, `0x40000000` is `2`, `0x47C35000` is `100000`;
  * `0x2B8CBCCC` is `9223372 · 2⁻⁶³` (the binary32 nearest `10⁻¹²`), positive;
  * `0x3727C5AC` is `10995116 · 2⁻⁴⁰` (the binary32 nearest `10⁻⁵`), positive;
  * `0x7FC00000` (a NaN pattern) is `⊥`: NOT real.
-/
import proofs.«113234_g16999480558224_cont_week2b_405_14_alg».proof.Proof.LibFinite

noncomputable section

namespace Cert.LibFinite

open Idealize.ShloMosaic

theorem ofBits_f32_zero : Ideal.ofBits .f32 0x00000000#32 = 0 := by simp [Ideal.ofBits, Ideal.ieee]
theorem ofBits_f32_one : Ideal.ofBits .f32 0x3F800000#32 = 1 := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_1e5 : Ideal.ofBits .f32 0x47C35000#32 = ((100000 : ℝ) : EReal) := by
  simp [Ideal.ofBits, Ideal.ieee, -EReal.coe_mul]; norm_num
theorem ofBits_f32_1em12 : Ideal.ofBits .f32 0x2B8CBCCC#32 = ((9223372 * (2 : ℝ) ^ (-63 : ℤ) : ℝ) : EReal) := by
  simp [Ideal.ofBits, Ideal.ieee, -EReal.coe_mul]
theorem ofBits_f32_1em5 : Ideal.ofBits .f32 0x3727C5AC#32 = ((10995116 * (2 : ℝ) ^ (-40 : ℤ) : ℝ) : EReal) := by
  simp [Ideal.ofBits, Ideal.ieee, -EReal.coe_mul]
theorem ofBits_f32_nan : Ideal.ofBits .f32 0x7FC00000#32 = ⊥ := by simp [Ideal.ofBits, Ideal.ieee]

theorem isReal_ofBits_zero : IsReal (Ideal.ofBits .f32 0x00000000#32) := ofBits_f32_zero ▸ isReal_zero
theorem isReal_ofBits_one : IsReal (Ideal.ofBits .f32 0x3F800000#32) := ofBits_f32_one ▸ isReal_one
theorem isPosReal_ofBits_one : IsPosReal (Ideal.ofBits .f32 0x3F800000#32) := ⟨1, one_pos, ofBits_f32_one⟩
theorem isPosReal_ofBits_two : IsPosReal (Ideal.ofBits .f32 0x40000000#32) := ⟨2, two_pos, ofBits_f32_two⟩
theorem isPosReal_ofBits_1e5 : IsPosReal (Ideal.ofBits .f32 0x47C35000#32) := ⟨100000, by norm_num, ofBits_f32_1e5⟩
theorem isPosReal_ofBits_1em12 : IsPosReal (Ideal.ofBits .f32 0x2B8CBCCC#32) := ⟨_, by positivity, ofBits_f32_1em12⟩
theorem isPosReal_ofBits_1em5 : IsPosReal (Ideal.ofBits .f32 0x3727C5AC#32) := ⟨_, by positivity, ofBits_f32_1em5⟩
theorem isReal_ofBits_two : IsReal (Ideal.ofBits .f32 0x40000000#32) := isPosReal_ofBits_two.isReal
theorem isReal_ofBits_1e5 : IsReal (Ideal.ofBits .f32 0x47C35000#32) := isPosReal_ofBits_1e5.isReal
theorem isReal_ofBits_1em12 : IsReal (Ideal.ofBits .f32 0x2B8CBCCC#32) := isPosReal_ofBits_1em12.isReal
theorem isReal_ofBits_1em5 : IsReal (Ideal.ofBits .f32 0x3727C5AC#32) := isPosReal_ofBits_1em5.isReal
theorem ofBits_1e5_ne_zero : Ideal.ofBits .f32 0x47C35000#32 ≠ 0 := isPosReal_ofBits_1e5.ne_zero

end Cert.LibFinite

end
-- ==== Proof.KernelPayload.lean ====
/-
  What the kernel body's three stores hold, entry by entry, when the blocks it loaded hold real numbers.

  The body loads a block of 8 keys of dimension 128, the usage row of 8192 entries and the two halves
  (4096 rows each) of the memory.  For each half it forms the 8 x 4096 matrix of unnormalised weights
  exp (<key, row> * (kn * 5) * mn), sums the weights along the rows and the weighted rows along the
  half, adds the two halves' sums, and multiplies by the reciprocal of the summed weights: the read.
  The new usage of a row is its old usage plus the normalised weights the 8 keys gave it.

  Every operation is read at an index: a cast between shapes with the same row-major order moves no
  entry, a reduction along an axis is the finite sum over that axis's coordinate, a matrix product
  into a zero accumulator is the sum over the contracted coordinate.  Every entry is the coercion
  of a real number, so the coercion is pushed outward through sums, products, quotients by nonzero
  reals, the square root of a nonnegative real and the exponential, and what is left is the
  unshifted arrangement of the specification.
-/
import proofs.«113234_g16999480558224_cont_week2b_405_14_alg».proof.Proof.Spec
import proofs.«113234_g16999480558224_cont_week2b_405_14_alg».proof.Proof.Coords
import proofs.«113234_g16999480558224_cont_week2b_405_14_alg».proof.Proof.LibFinite
import proofs.«113234_g16999480558224_cont_week2b_405_14_alg».proof.Proof.LibFiniteLits
import proofs.«113234_g16999480558224_cont_week2b_405_14_alg».proof.Proof.Gen.KernelIdeal.Skeleton
import Idealize.ShloMosaic.Lib.ValueLayout
import Idealize.ShloMosaic.PureOps.Ideal.Laws

noncomputable section

namespace Cert.KernelPayload

open Cert.KernelIdeal Cert.KernelIdeal.Gen Cert.Spec Idealize.ShloMosaic Idealize.ShloMosaic.ValueIdx
open scoped BigOperators

/-! ## The literals -/

/-- The word `0x0DA24260` is the binary32 number nearest 10⁻³⁰. -/
theorem ofBits_eps : Ideal.ofBits .f32 0x0DA24260#32 = ((eps : ℝ) : EReal) := by
  simp [Ideal.ofBits, Ideal.ieee, -EReal.coe_mul, eps]

/-- The word `0x40A00000` is 5. -/
theorem ofBits_five : Ideal.ofBits .f32 0x40A00000#32 = ((5 : ℝ) : EReal) := by
  simp [Ideal.ofBits, Ideal.ieee, -EReal.coe_mul]; norm_num

/-- The word `0x3F800000` is 1. -/
theorem ofBits_one : Ideal.ofBits .f32 0x3F800000#32 = ((1 : ℝ) : EReal) := by
  rw [Cert.LibFinite.ofBits_f32_one]; rfl

/-- The bfloat16 word `0x3F80` is 1. -/
theorem ofBits_bf16_one : Ideal.ofBits .bf16 0x3F80#16 = ((1 : ℝ) : EReal) := by
  simp [Ideal.ofBits, Ideal.ieee, -EReal.coe_mul]; norm_num

/-! ## A cast to a column and the broadcast of a column (the keepdims forms) -/

section Layout
variable {α : Type}

/-- An `[a]` array cast to `[a, 1]` reads, at `(i, u)`, the operand at `i`: the row-major positions agree. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a matrix -/

/-- The sum along the rows of an `[8, n]` matrix: at row `k`, the sum over the columns. -/
theorem sumAxis1_apply {n : ℕ} (X : FVec Ideal ⟨2, ![8, n]⟩ .f32) (h : (⟨2, ![8, n]⟩ : Shape).Reduces [1] ⟨1, ![8]⟩)
    (hφ : FKind.Formats .f32) (hacc : (0x00000000#32 : BitVec 32) = 0x00000000#32) (k : Fin 8) :
    multiReduction .add [1] ⟨1, ![8]⟩ X 0x00000000#32 h hφ hacc (ix1 k) = ∑ d : Fin n, X (ix2 k d) := by
  refine (Ideal.multiReduction_add_single X _ h hφ hacc (ix1 k)).trans ?_
  refine Finset.sum_congr rfl fun d _ => congrArg X ?_
  funext a; apply Fin.ext
  match a with
  | ⟨0, _⟩ => rfl
  | ⟨1, _⟩ => rfl

/-- The same sum kept as a column `[8, 1]`. -/
theorem rowSum_keep_apply {n : ℕ} (X : FVec Ideal ⟨2, ![8, n]⟩ .f32) (h : (⟨2, ![8, n]⟩ : Shape).Reduces [1] ⟨1, ![8]⟩)
    (hφ : FKind.Formats .f32) (hacc : (0x00000000#32 : BitVec 32) = 0x00000000#32)
    (hc : (⟨1, ![8]⟩ : Shape).ShapeCasts ⟨2, ![8, 1]⟩) (k : Fin 8) (u : Fin 1) :
    shapeCast ⟨2, ![8, 1]⟩ (multiReduction .add [1] ⟨1, ![8]⟩ X 0x00000000#32 h hφ hacc) hc (ix2 k u)
      = ∑ d : Fin n, X (ix2 k d) :=
  (shapeCast_a_a1_apply _ hc k u).trans (sumAxis1_apply X h hφ hacc k)

/-- The sum along the columns of an `[8, n]` matrix: at column `s`, the sum over the 8 rows. -/
theorem sumAxis0_apply {n : ℕ} (X : FVec Ideal ⟨2, ![8, n]⟩ .f32) (h : (⟨2, ![8, n]⟩ : Shape).Reduces [0] ⟨1, ![n]⟩)
    (hφ : FKind.Formats .f32) (hacc : (0x00000000#32 : BitVec 32) = 0x00000000#32) (s : Fin n) :
    multiReduction .add [0] ⟨1, ![n]⟩ X 0x00000000#32 h hφ hacc (ix1 s) = ∑ k : Fin 8, X (ix2 k s) := by
  refine (Ideal.multiReduction_add_single X _ h hφ hacc (ix1 s)).trans ?_
  refine Finset.sum_congr rfl fun k _ => congrArg X ?_
  funext a; apply Fin.ext
  match a with
  | ⟨0, _⟩ => rfl
  | ⟨1, _⟩ => rfl

/-- The same sum kept as a row `[1, n]`. -/
theorem colSum_keep_apply {n : ℕ} (X : FVec Ideal ⟨2, ![8, n]⟩ .f32) (h : (⟨2, ![8, n]⟩ : Shape).Reduces [0] ⟨1, ![n]⟩)
    (hφ : FKind.Formats .f32) (hacc : (0x00000000#32 : BitVec 32) = 0x00000000#32)
    (hc : (⟨1, ![n]⟩ : Shape).ShapeCasts ⟨2, ![1, n]⟩) (u : Fin 1) (s : Fin n) :
    shapeCast ⟨2, ![1, n]⟩ (multiReduction .add [0] ⟨1, ![n]⟩ X 0x00000000#32 h hφ hacc) hc (ix2 u s)
      = ∑ k : Fin 8, X (ix2 k s) :=
  (shapeCast_a_1a_apply _ hc u s).trans (sumAxis0_apply X h hφ hacc s)

/-! ## The three matrix products, into zero accumulators, at an index -/

theorem mm_keys_rows_apply_lhs (j : S8x4096.Idx) (q : dot_S8x128_S4096x128_S8x4096_1_1_0_0_n_n.contr.Idx) :
    (dot_S8x128_S4096x128_S8x4096_1_1_0_0_n_n.lhsIdx j q 0).val = (j 0).val := by
  unfold DotDims.lhsIdx
  rw [dif_neg (show ¬(0 : Fin S8x128.rank) ∈ dot_S8x128_S4096x128_S8x4096_1_1_0_0_n_n.lhsBatch by decide), dif_pos (show (0 : Fin S8x128.rank) ∈ dot_S8x128_S4096x128_S8x4096_1_1_0_0_n_n.lhsNonContracting by decide)]
  rfl
theorem mm_keys_rows_apply_rhs (j : S8x4096.Idx) (q : dot_S8x128_S4096x128_S8x4096_1_1_0_0_n_n.contr.Idx) :
    (dot_S8x128_S4096x128_S8x4096_1_1_0_0_n_n.rhsIdx j q 0).val = (j 1).val := by
  unfold DotDims.rhsIdx
  rw [dif_neg (show ¬(0 : Fin S4096x128.rank) ∈ dot_S8x128_S4096x128_S8x4096_1_1_0_0_n_n.rhsBatch by decide), dif_pos (show (0 : Fin S4096x128.rank) ∈ dot_S8x128_S4096x128_S8x4096_1_1_0_0_n_n.rhsNonContracting by decide)]
  rfl
/-- Keys against rows, both contracted along the dimension: at `(k, s)`, the sum over the dimension of key `k` times row `s`. -/
theorem mm_keys_rows_apply (A : FVec Ideal S8x128 .bf16) (B : FVec Ideal S4096x128 .bf16) (k : Fin 8) (s : Fin 4096) :
    matmul dot_S8x128_S4096x128_S8x4096_1_1_0_0_n_n none A B (constant S8x4096 .f32 0x00000000#32) (ix2 k s)
      = ∑ c : Fin 128, A (ix2 k c) * B (ix2 s c) := by
  refine (Ideal.matmul_constant_zero_apply dot_S8x128_S4096x128_S8x4096_1_1_0_0_n_n none A B (ix2 k s)).trans ?_
  rw [← Equiv.sum_comp (contrEquiv1 dot_S8x128_S4096x128_S8x4096_1_1_0_0_n_n 128 rfl rfl).symm]
  refine Finset.sum_congr rfl fun c _ => ?_
  have hc := contrEquiv1_symm_val dot_S8x128_S4096x128_S8x4096_1_1_0_0_n_n 128 rfl rfl c
  have el : dot_S8x128_S4096x128_S8x4096_1_1_0_0_n_n.lhsIdx (ix2 k s) ((contrEquiv1 dot_S8x128_S4096x128_S8x4096_1_1_0_0_n_n 128 rfl rfl).symm c) = (ix2 k c) := funext fun a => Fin.ext (by
    match a with
    | ⟨0, _⟩ => exact mm_keys_rows_apply_lhs _ _
    | ⟨1, _⟩ => exact (dot_S8x128_S4096x128_S8x4096_1_1_0_0_n_n.lhsIdx_val_of_single rfl _ _).trans hc)
  have er : dot_S8x128_S4096x128_S8x4096_1_1_0_0_n_n.rhsIdx (ix2 k s) ((contrEquiv1 dot_S8x128_S4096x128_S8x4096_1_1_0_0_n_n 128 rfl rfl).symm c) = (ix2 s c) := funext fun a => Fin.ext (by
    match a with
    | ⟨0, _⟩ => exact mm_keys_rows_apply_rhs _ _
    | ⟨1, _⟩ => exact (dot_S8x128_S4096x128_S8x4096_1_1_0_0_n_n.rhsIdx_val_of_single rfl _ _).trans hc)
  rw [el, er]

theorem mm_ones_rows_apply_lhs (j : S1x4096.Idx) (q : dot_S1x128_S4096x128_S1x4096_1_1_0_0_n_n.contr.Idx) :
    (dot_S1x128_S4096x128_S1x4096_1_1_0_0_n_n.lhsIdx j q 0).val = (j 0).val := by
  unfold DotDims.lhsIdx
  rw [dif_neg (show ¬(0 : Fin S1x128.rank) ∈ dot_S1x128_S4096x128_S1x4096_1_1_0_0_n_n.lhsBatch by decide), dif_pos (show (0 : Fin S1x128.rank) ∈ dot_S1x128_S4096x128_S1x4096_1_1_0_0_n_n.lhsNonContracting by decide)]
  rfl
theorem mm_ones_rows_apply_rhs (j : S1x4096.Idx) (q : dot_S1x128_S4096x128_S1x4096_1_1_0_0_n_n.contr.Idx) :
    (dot_S1x128_S4096x128_S1x4096_1_1_0_0_n_n.rhsIdx j q 0).val = (j 1).val := by
  unfold DotDims.rhsIdx
  rw [dif_neg (show ¬(0 : Fin S4096x128.rank) ∈ dot_S1x128_S4096x128_S1x4096_1_1_0_0_n_n.rhsBatch by decide), dif_pos (show (0 : Fin S4096x128.rank) ∈ dot_S1x128_S4096x128_S1x4096_1_1_0_0_n_n.rhsNonContracting by decide)]
  rfl
/-- A single row against the rows, contracted along the dimension. -/
theorem mm_ones_rows_apply (A : FVec Ideal S1x128 .bf16) (B : FVec Ideal S4096x128 .bf16) (u : Fin 1) (s : Fin 4096) :
    matmul dot_S1x128_S4096x128_S1x4096_1_1_0_0_n_n none A B (constant S1x4096 .f32 0x00000000#32) (ix2 u s)
      = ∑ c : Fin 128, A (ix2 u c) * B (ix2 s c) := by
  refine (Ideal.matmul_constant_zero_apply dot_S1x128_S4096x128_S1x4096_1_1_0_0_n_n none A B (ix2 u s)).trans ?_
  rw [← Equiv.sum_comp (contrEquiv1 dot_S1x128_S4096x128_S1x4096_1_1_0_0_n_n 128 rfl rfl).symm]
  refine Finset.sum_congr rfl fun c _ => ?_
  have hc := contrEquiv1_symm_val dot_S1x128_S4096x128_S1x4096_1_1_0_0_n_n 128 rfl rfl c
  have el : dot_S1x128_S4096x128_S1x4096_1_1_0_0_n_n.lhsIdx (ix2 u s) ((contrEquiv1 dot_S1x128_S4096x128_S1x4096_1_1_0_0_n_n 128 rfl rfl).symm c) = (ix2 u c) := funext fun a => Fin.ext (by
    match a with
    | ⟨0, _⟩ => exact mm_ones_rows_apply_lhs _ _
    | ⟨1, _⟩ => exact (dot_S1x128_S4096x128_S1x4096_1_1_0_0_n_n.lhsIdx_val_of_single rfl _ _).trans hc)
  have er : dot_S1x128_S4096x128_S1x4096_1_1_0_0_n_n.rhsIdx (ix2 u s) ((contrEquiv1 dot_S1x128_S4096x128_S1x4096_1_1_0_0_n_n 128 rfl rfl).symm c) = (ix2 s c) := funext fun a => Fin.ext (by
    match a with
    | ⟨0, _⟩ => exact mm_ones_rows_apply_rhs _ _
    | ⟨1, _⟩ => exact (dot_S1x128_S4096x128_S1x4096_1_1_0_0_n_n.rhsIdx_val_of_single rfl _ _).trans hc)
  rw [el, er]

theorem mm_weights_rows_apply_lhs (j : S8x128.Idx) (q : dot_S8x4096_S4096x128_S8x128_1_0_0_1_n_n.contr.Idx) :
    (dot_S8x4096_S4096x128_S8x128_1_0_0_1_n_n.lhsIdx j q 0).val = (j 0).val := by
  unfold DotDims.lhsIdx
  rw [dif_neg (show ¬(0 : Fin S8x4096.rank) ∈ dot_S8x4096_S4096x128_S8x128_1_0_0_1_n_n.lhsBatch by decide), dif_pos (show (0 : Fin S8x4096.rank) ∈ dot_S8x4096_S4096x128_S8x128_1_0_0_1_n_n.lhsNonContracting by decide)]
  rfl
theorem mm_weights_rows_apply_rhs (j : S8x128.Idx) (q : dot_S8x4096_S4096x128_S8x128_1_0_0_1_n_n.contr.Idx) :
    (dot_S8x4096_S4096x128_S8x128_1_0_0_1_n_n.rhsIdx j q 1).val = (j 1).val := by
  unfold DotDims.rhsIdx
  rw [dif_neg (show ¬(1 : Fin S4096x128.rank) ∈ dot_S8x4096_S4096x128_S8x128_1_0_0_1_n_n.rhsBatch by decide), dif_pos (show (1 : Fin S4096x128.rank) ∈ dot_S8x4096_S4096x128_S8x128_1_0_0_1_n_n.rhsNonContracting by decide)]
  rfl
/-- Weights against rows, contracted along the rows: at `(k, d)`, the sum over the rows of the weight of `(k, row)` times the row's entry `d`. -/
theorem mm_weights_rows_apply (A : FVec Ideal S8x4096 .bf16) (B : FVec Ideal S4096x128 .bf16) (k : Fin 8) (d : Fin 128) :
    matmul dot_S8x4096_S4096x128_S8x128_1_0_0_1_n_n none A B (constant S8x128 .f32 0x00000000#32) (ix2 k d)
      = ∑ c : Fin 4096, A (ix2 k c) * B (ix2 c d) := by
  refine (Ideal.matmul_constant_zero_apply dot_S8x4096_S4096x128_S8x128_1_0_0_1_n_n none A B (ix2 k d)).trans ?_
  rw [← Equiv.sum_comp (contrEquiv1 dot_S8x4096_S4096x128_S8x128_1_0_0_1_n_n 4096 rfl rfl).symm]
  refine Finset.sum_congr rfl fun c _ => ?_
  have hc := contrEquiv1_symm_val dot_S8x4096_S4096x128_S8x128_1_0_0_1_n_n 4096 rfl rfl c
  have el : dot_S8x4096_S4096x128_S8x128_1_0_0_1_n_n.lhsIdx (ix2 k d) ((contrEquiv1 dot_S8x4096_S4096x128_S8x128_1_0_0_1_n_n 4096 rfl rfl).symm c) = (ix2 k c) := funext fun a => Fin.ext (by
    match a with
    | ⟨0, _⟩ => exact mm_weights_rows_apply_lhs _ _
    | ⟨1, _⟩ => exact (dot_S8x4096_S4096x128_S8x128_1_0_0_1_n_n.lhsIdx_val_of_single rfl _ _).trans hc)
  have er : dot_S8x4096_S4096x128_S8x128_1_0_0_1_n_n.rhsIdx (ix2 k d) ((contrEquiv1 dot_S8x4096_S4096x128_S8x128_1_0_0_1_n_n 4096 rfl rfl).symm c) = (ix2 c d) := funext fun a => Fin.ext (by
    match a with
    | ⟨1, _⟩ => exact mm_weights_rows_apply_rhs _ _
    | ⟨0, _⟩ => exact (dot_S8x4096_S4096x128_S8x128_1_0_0_1_n_n.rhsIdx_val_of_single rfl _ _).trans hc)
  rw [el, er]

/-! ## The exponential and the square root at an index, and the reciprocal of a norm -/

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-- The square root of a nonnegative real. -/
theorem sqrt_coe_of_nonneg {r : ℝ} (h : 0 ≤ r) : Ideal.sqrt (r : EReal) = ((Real.sqrt r : ℝ) : EReal) := by
  rw [Ideal.sqrt_coe, if_neg (not_lt.mpr h)]

/-- `ε + √r` is positive. -/
theorem eps_add_sqrt_pos (r : ℝ) : 0 < eps + Real.sqrt r := add_pos_of_pos_of_nonneg eps_pos (Real.sqrt_nonneg r)

/-- The reciprocal `1 / (ε + √r)` of a nonnegative real `r`, computed entry by entry. -/
theorem recip_norm_coe {r : ℝ} (h : 0 ≤ r) :
    Ideal.div (Ideal.ofBits .f32 0x3F800000#32) (Ideal.ofBits .f32 0x0DA24260#32 + Ideal.sqrt (r : EReal))
      = ((1 / (eps + Real.sqrt r) : ℝ) : EReal) := by
  rw [ofBits_one, ofBits_eps, sqrt_coe_of_nonneg h, ← EReal.coe_add,
    Cert.LibFinite.div_coe_coe 1 (eps_add_sqrt_pos r).ne']

/-! ## The casts that drop the leading unit axis of a loaded block -/

theorem pay2_at (v0 : Vec Ideal S1x8x128 .f32) (k : Fin 8) (d : Fin 128) :
    k0_pay2 v0 (ix2 k d) = v0 (ix3 (0 : Fin 1) k d) :=
  shapeCast_1ab_ab_apply v0 _ k d

theorem pay3_at (v2 : Vec Ideal S1x1x8192 .f32) (u : Fin 1) (s : Fin 8192) :
    k0_pay3 v2 (ix2 u s) = v2 (ix3 (0 : Fin 1) u s) :=
  shapeCast_1ab_ab_apply v2 _ u s

theorem pay6_at (v0 : Vec Ideal S1x8x128 .f32) (k : Fin 8) (d : Fin 128) :
    k0_pay6 v0 (ix2 k d) = v0 (ix3 (0 : Fin 1) k d) :=
  pay2_at v0 k d

theorem pay7_at (v14 : Vec Ideal S1x4096x128 .f32) (s : Fin 4096) (d : Fin 128) :
    k0_pay7 v14 (ix2 s d) = v14 (ix3 (0 : Fin 1) s d) :=
  shapeCast_1ab_ab_apply v14 _ s d

theorem pay11_at (v36 : Vec Ideal S1x4096x128 .f32) (s : Fin 4096) (d : Fin 128) :
    k0_pay11 v36 (ix2 s d) = v36 (ix3 (0 : Fin 1) s d) :=
  shapeCast_1ab_ab_apply v36 _ s d

/-- The row of ones. -/
theorem pay5_at (u : Fin 1) (d : Fin 128) : (k0_pay5 (F := Ideal)) (ix2 u d) = ((1 : ℝ) : EReal) :=
  ofBits_bf16_one

/-! ## The key's factor -/

/-- The key's factor `1 / (ε + ‖key‖)`: the squares summed along the dimension, kept as a column. -/
theorem pay4_at (v0 : Vec Ideal S1x8x128 .f32) (Kk : Fin 8 → Fin 128 → ℝ)
    (hK : ∀ (k : Fin 8) (d : Fin 128), v0 (ix3 (0 : Fin 1) k d) = ((Kk k d : ℝ) : EReal)) (k : Fin 8) (u : Fin 1) :
    k0_pay4 v0 (ix2 k u) = ((1 / (eps + Real.sqrt (∑ d : Fin 128, Kk k d * Kk k d)) : ℝ) : EReal) := by
  have h0 : 0 ≤ ∑ d : Fin 128, Kk k d * Kk k d := Finset.sum_nonneg fun d _ => mul_self_nonneg _
  have hs : (∑ d : Fin 128, mulf (k0_pay2 v0) (k0_pay2 v0) (ix2 k d)) = ((∑ d : Fin 128, Kk k d * Kk k d : ℝ) : EReal) := by
    rw [Cert.LibFinite.coe_finset_sum]
    refine Finset.sum_congr rfl fun d _ => ?_
    rw [mulf_apply, pay2_at, hK, EReal.coe_mul]
  unfold k0_pay4
  simp only [divf_apply, addf_apply, sqrt_apply, broadcast_apply, Ideal.ofBits_def]
  rw [rowSum_keep_apply, hs, recip_norm_coe h0]

/-! ## The unnormalised weights of a half of the memory -/

/-- The unnormalised weight of key `k` and row `s` of a half of the memory, from the keys' factors `a`,
    the keys `Kk` and the half's rows `R`: `exp (⟨key, row⟩ · (a k · 5) · 1 / (ε + ‖row‖))`. -/
def wHalf (a : Fin 8 → ℝ) (Kk : Fin 8 → Fin 128 → ℝ) (R : Fin 4096 → Fin 128 → ℝ) (k : Fin 8) (s : Fin 4096) : ℝ :=
  Real.exp ((∑ d : Fin 128, Kk k d * R s d) * (a k * 5) * (1 / (eps + Real.sqrt (∑ d : Fin 128, R s d * R s d))))

theorem pay12_at (v11 : FVec Ideal S8x1 .f32) (v12 : FVec Ideal S1x128 .bf16) (v13 : FVec Ideal S8x128 .bf16) (v36 : Vec Ideal S1x4096x128 .f32)
    (a : Fin 8 → ℝ) (Kk : Fin 8 → Fin 128 → ℝ) (R : Fin 4096 → Fin 128 → ℝ)
    (h11 : ∀ k : Fin 8, v11 (ix2 k (0 : Fin 1)) = ((a k : ℝ) : EReal))
    (h12 : ∀ d : Fin 128, v12 (ix2 (0 : Fin 1) d) = ((1 : ℝ) : EReal))
    (h13 : ∀ (k : Fin 8) (d : Fin 128), v13 (ix2 k d) = ((Kk k d : ℝ) : EReal))
    (h36 : ∀ (s : Fin 4096) (d : Fin 128), v36 (ix3 (0 : Fin 1) s d) = ((R s d : ℝ) : EReal))
    (k : Fin 8) (s : Fin 4096) :
    k0_pay12 v11 v12 v13 v36 (ix2 k s) = ((wHalf a Kk R k s : ℝ) : EReal) := by
  have h0 : 0 ≤ ∑ d : Fin 128, R s d * R s d := Finset.sum_nonneg fun d _ => mul_self_nonneg _
  have e39 : (∑ c : Fin 128, v13 (ix2 k c) * k0_pay11 v36 (ix2 s c)) = ((∑ d : Fin 128, Kk k d * R s d : ℝ) : EReal) := by
    rw [Cert.LibFinite.coe_finset_sum]
    refine Finset.sum_congr rfl fun d _ => ?_
    rw [h13, pay11_at, h36, EReal.coe_mul]
  have e41 : (∑ c : Fin 128, v12 (ix2 (0 : Fin 1) c) * (k0_pay11 v36 (ix2 s c) * k0_pay11 v36 (ix2 s c)))
      = ((∑ d : Fin 128, R s d * R s d : ℝ) : EReal) := by
    rw [Cert.LibFinite.coe_finset_sum]
    refine Finset.sum_congr rfl fun d _ => ?_
    rw [h12, pay11_at, h36, ← EReal.coe_mul, ← EReal.coe_mul, one_mul]
  unfold k0_pay12
  simp only [exp_apply, mulf_apply, divf_apply, addf_apply, sqrt_apply, broadcast_apply, Ideal.ofBits_def,
    broadcastTo_a1_ab_apply, broadcastTo_1b_ab_apply, mm_keys_rows_apply, mm_ones_rows_apply]
  rw [e39, e41, recip_norm_coe h0, h11, ofBits_five, ← EReal.coe_mul, ← EReal.coe_mul, ← EReal.coe_mul]
  rfl

/-- The lower half's weights: the same arithmetic on the keys' block itself. -/
theorem pay8_at (v0 : Vec Ideal S1x8x128 .f32) (v14 : Vec Ideal S1x4096x128 .f32)
    (Kk : Fin 8 → Fin 128 → ℝ) (R : Fin 4096 → Fin 128 → ℝ)
    (hK : ∀ (k : Fin 8) (d : Fin 128), v0 (ix3 (0 : Fin 1) k d) = ((Kk k d : ℝ) : EReal))
    (h14 : ∀ (s : Fin 4096) (d : Fin 128), v14 (ix3 (0 : Fin 1) s d) = ((R s d : ℝ) : EReal))
    (k : Fin 8) (s : Fin 4096) :
    k0_pay8 v0 v14 (ix2 k s)
      = ((wHalf (fun k => 1 / (eps + Real.sqrt (∑ d : Fin 128, Kk k d * Kk k d))) Kk R k s : ℝ) : EReal) :=
  pay12_at (k0_pay4 v0) k0_pay5 (k0_pay6 v0) v14 _ Kk R (fun k => pay4_at v0 Kk hK k 0) (fun d => pay5_at 0 d)
    (fun k d => (pay6_at v0 k d).trans (hK k d)) h14 k s

/-! ## The sums of the weights and their reciprocal -/

/-- The lower half's weights summed along the rows, kept as a column. -/
theorem pay10_at (v0 : Vec Ideal S1x8x128 .f32) (v14 : Vec Ideal S1x4096x128 .f32) (W : Fin 8 → Fin 4096 → ℝ)
    (h8 : ∀ (k : Fin 8) (s : Fin 4096), k0_pay8 v0 v14 (ix2 k s) = ((W k s : ℝ) : EReal)) (k : Fin 8) (u : Fin 1) :
    k0_pay10 v0 v14 (ix2 k u) = ((∑ s : Fin 4096, W k s : ℝ) : EReal) := by
  simp only [k0_pay10]
  rw [rowSum_keep_apply, Cert.LibFinite.coe_finset_sum]
  exact Finset.sum_congr rfl fun s _ => h8 k s

/-- The reciprocal of the summed weights: the lower half's sum plus the upper half's. -/
theorem pay13_at (v11 : FVec Ideal S8x1 .f32) (v12 : FVec Ideal S1x128 .bf16) (v13 : FVec Ideal S8x128 .bf16)
    (v35 : FVec Ideal S8x1 .f32) (v36 : Vec Ideal S1x4096x128 .f32) (W : Fin 8 → Fin 4096 → ℝ) (dLo : Fin 8 → ℝ)
    (hW : ∀ (k : Fin 8) (s : Fin 4096), k0_pay12 v11 v12 v13 v36 (ix2 k s) = ((W k s : ℝ) : EReal))
    (h35 : ∀ (k : Fin 8) (u : Fin 1), v35 (ix2 k u) = ((dLo k : ℝ) : EReal))
    (hne : ∀ k : Fin 8, dLo k + ∑ s : Fin 4096, W k s ≠ 0) (k : Fin 8) (u : Fin 1) :
    k0_pay13 v11 v12 v13 v35 v36 (ix2 k u) = ((1 / (dLo k + ∑ s : Fin 4096, W k s) : ℝ) : EReal) := by
  have hs : (∑ s : Fin 4096, k0_pay12 v11 v12 v13 v36 (ix2 k s)) = ((∑ s : Fin 4096, W k s : ℝ) : EReal) := by
    rw [Cert.LibFinite.coe_finset_sum]
    exact Finset.sum_congr rfl fun s _ => hW k s
  simp only [k0_pay13, divf_apply, addf_apply, broadcast_apply, Ideal.ofBits_def]
  rw [rowSum_keep_apply, hs, h35, ofBits_one, ← EReal.coe_add, Cert.LibFinite.div_coe_coe 1 (hne k)]

/-! ## The weighted rows and the read -/

/-- The lower half's weighted rows: at `(k, d)`, the sum over the half's rows of weight times entry. -/
theorem pay9_at (v0 : Vec Ideal S1x8x128 .f32) (v14 : Vec Ideal S1x4096x128 .f32)
    (W : Fin 8 → Fin 4096 → ℝ) (R : Fin 4096 → Fin 128 → ℝ)
    (h8 : ∀ (k : Fin 8) (s : Fin 4096), k0_pay8 v0 v14 (ix2 k s) = ((W k s : ℝ) : EReal))
    (h14 : ∀ (s : Fin 4096) (d : Fin 128), v14 (ix3 (0 : Fin 1) s d) = ((R s d : ℝ) : EReal))
    (k : Fin 8) (d : Fin 128) :
    k0_pay9 v0 v14 (ix2 k d) = ((∑ s : Fin 4096, W k s * R s d : ℝ) : EReal) := by
  simp only [k0_pay9, mm_weights_rows_apply, truncf_apply]
  rw [Cert.LibFinite.coe_finset_sum]
  refine Finset.sum_congr rfl fun s _ => ?_
  rw [h8, pay7_at, h14, EReal.coe_mul]

/-- The read: the two halves' weighted rows added and multiplied by the reciprocal of the summed weights. -/
theorem pay14_at (v11 : FVec Ideal S8x1 .f32) (v12 : FVec Ideal S1x128 .bf16) (v13 : FVec Ideal S8x128 .bf16)
    (v33 : FVec Ideal S8x128 .f32) (v35 : FVec Ideal S8x1 .f32) (v36 : Vec Ideal S1x4096x128 .f32)
    (W : Fin 8 → Fin 4096 → ℝ) (R : Fin 4096 → Fin 128 → ℝ) (accLo : Fin 8 → Fin 128 → ℝ) (inv : Fin 8 → ℝ)
    (hW : ∀ (k : Fin 8) (s : Fin 4096), k0_pay12 v11 v12 v13 v36 (ix2 k s) = ((W k s : ℝ) : EReal))
    (h36 : ∀ (s : Fin 4096) (d : Fin 128), v36 (ix3 (0 : Fin 1) s d) = ((R s d : ℝ) : EReal))
    (h33 : ∀ (k : Fin 8) (d : Fin 128), v33 (ix2 k d) = ((accLo k d : ℝ) : EReal))
    (hinv : ∀ k : Fin 8, k0_pay13 v11 v12 v13 v35 v36 (ix2 k (0 : Fin 1)) = ((inv k : ℝ) : EReal))
    (u : Fin 1) (k : Fin 8) (d : Fin 128) :
    k0_pay14 v11 v12 v13 v33 v35 v36 (ix3 u k d)
      = (((accLo k d + ∑ s : Fin 4096, W k s * R s d) * inv k : ℝ) : EReal) := by
  have hs : (∑ s : Fin 4096, k0_pay12 v11 v12 v13 v36 (ix2 k s) * k0_pay11 v36 (ix2 s d))
      = ((∑ s : Fin 4096, W k s * R s d : ℝ) : EReal) := by
    rw [Cert.LibFinite.coe_finset_sum]
    refine Finset.sum_congr rfl fun s _ => ?_
    rw [hW, pay11_at, h36, EReal.coe_mul]
  simp only [k0_pay14, shapeCast_ab_1ab_apply, mulf_apply, addf_apply, broadcastTo_a1_ab_apply,
    mm_weights_rows_apply, truncf_apply]
  rw [hs, h33, hinv, ← EReal.coe_add, ← EReal.coe_mul]

/-! ## The new usage -/

/-- The new usage of the lower half's rows: the old usage plus, summed over the 8 keys, the lower half's
    weights times the reciprocals of the summed weights. -/
theorem pay15_at (v3 : FVec Ideal S1x8192 .f32) (v11 : FVec Ideal S8x1 .f32) (v12 : FVec Ideal S1x128 .bf16)
    (v13 : FVec Ideal S8x128 .bf16) (v31 : FVec Ideal S8x4096 .f32) (v35 : FVec Ideal S8x1 .f32)
    (v36 : Vec Ideal S1x4096x128 .f32) (Uu : Fin 8192 → ℝ) (Wlo : Fin 8 → Fin 4096 → ℝ) (inv : Fin 8 → ℝ)
    (h3 : ∀ s : Fin 8192, v3 (ix2 (0 : Fin 1) s) = ((Uu s : ℝ) : EReal))
    (h31 : ∀ (k : Fin 8) (s : Fin 4096), v31 (ix2 k s) = ((Wlo k s : ℝ) : EReal))
    (hinv : ∀ k : Fin 8, k0_pay13 v11 v12 v13 v35 v36 (ix2 k (0 : Fin 1)) = ((inv k : ℝ) : EReal))
    (u u' : Fin 1) (s : Fin 4096) :
    k0_pay15 v3 v11 v12 v13 v31 v35 v36 (ix3 u u' s)
      = ((Uu (lo s) + ∑ k : Fin 8, Wlo k s * inv k : ℝ) : EReal) := by
  simp only [k0_pay15, shapeCast_ab_1ab_apply, addf_apply]
  rw [colSum_keep_apply, slice2_axis1_apply 0 v3 _ u' s (lo s) (Nat.zero_add _).symm]
  have hu : u' = 0 := Subsingleton.elim _ _
  subst hu
  rw [h3, EReal.coe_add, Cert.LibFinite.coe_finset_sum]
  congr 1
  refine Finset.sum_congr rfl fun k _ => ?_
  rw [mulf_apply, broadcastTo_a1_ab_apply, h31, hinv, EReal.coe_mul]

/-- The old usage of the upper half's rows. -/
theorem pay16_at (v3 : FVec Ideal S1x8192 .f32) (u : Fin 1) (s : Fin 4096) :
    k0_pay16 v3 (ix2 u s) = v3 (ix2 u (hi s)) :=
  slice2_axis1_apply 4096 v3 slices_S1x8192_o0_4096_S1x4096 u s (hi s) (Nat.add_comm _ _)

/-- The upper half's weights times the reciprocals of the summed weights. -/
theorem pay17_at (v11 : FVec Ideal S8x1 .f32) (v12 : FVec Ideal S1x128 .bf16) (v13 : FVec Ideal S8x128 .bf16)
    (v35 : FVec Ideal S8x1 .f32) (v36 : Vec Ideal S1x4096x128 .f32) (k : Fin 8) (s : Fin 4096) :
    k0_pay17 v11 v12 v13 v35 v36 (ix2 k s)
      = k0_pay12 v11 v12 v13 v36 (ix2 k s) * k0_pay13 v11 v12 v13 v35 v36 (ix2 k (0 : Fin 1)) := by
  simp only [k0_pay17, mulf_apply, broadcastTo_a1_ab_apply]

/-- The new usage of the upper half's rows: the old usage plus the sum over the 8 keys. -/
theorem pay1_at (v76 : FVec Ideal S1x4096 .f32) (v78 : FVec Ideal S8x4096 .f32) (u u' : Fin 1) (s : Fin 4096) :
    k0_pay1 v76 v78 (ix3 u u' s) = v76 (ix2 u' s) + ∑ k : Fin 8, v78 (ix2 k s) := by
  simp only [k0_pay1, shapeCast_ab_1ab_apply, addf_apply]
  rw [colSum_keep_apply]

/-! ## The three stores, from blocks that hold real numbers -/

section Stores
variable (K : Fin 32 → Fin 8 → Fin 128 → ℝ) (M : Fin 32 → Fin 8192 → Fin 128 → ℝ) (b : Fin 32)
  (v0 : Vec Ideal S1x8x128 .f32) (v14 v36 : Vec Ideal S1x4096x128 .f32)

/-- The summed weights of a key are positive: they are exponentials. -/
theorem denU_pos (k : Fin 8) : 0 < denU K M b k :=
  add_pos (Finset.sum_pos (fun s _ => Real.exp_pos _) ⟨⟨0, by decide⟩, Finset.mem_univ _⟩)
    (Finset.sum_pos (fun s _ => Real.exp_pos _) ⟨⟨0, by decide⟩, Finset.mem_univ _⟩)

/-- The keys' factors. -/
theorem kn_at (hK : ∀ (k : Fin 8) (d : Fin 128), v0 (ix3 (0 : Fin 1) k d) = ((K b k d : ℝ) : EReal)) (k : Fin 8) (u : Fin 1) :
    k0_pay4 v0 (ix2 k u) = ((kn K b k : ℝ) : EReal) :=
  pay4_at v0 (K b) hK k u

/-- The lower half's weights. -/
theorem wLo_at (hK : ∀ (k : Fin 8) (d : Fin 128), v0 (ix3 (0 : Fin 1) k d) = ((K b k d : ℝ) : EReal))
    (hLo : ∀ (s : Fin 4096) (d : Fin 128), v14 (ix3 (0 : Fin 1) s d) = ((M b (lo s) d : ℝ) : EReal))
    (k : Fin 8) (s : Fin 4096) : k0_pay8 v0 v14 (ix2 k s) = ((wU K M b k (lo s) : ℝ) : EReal) :=
  pay8_at v0 v14 (K b) (fun s d => M b (lo s) d) hK hLo k s

/-- The upper half's weights. -/
theorem wHi_at (hK : ∀ (k : Fin 8) (d : Fin 128), v0 (ix3 (0 : Fin 1) k d) = ((K b k d : ℝ) : EReal))
    (hHi : ∀ (s : Fin 4096) (d : Fin 128), v36 (ix3 (0 : Fin 1) s d) = ((M b (hi s) d : ℝ) : EReal))
    (k : Fin 8) (s : Fin 4096) :
    k0_pay12 (k0_pay4 v0) k0_pay5 (k0_pay6 v0) v36 (ix2 k s) = ((wU K M b k (hi s) : ℝ) : EReal) :=
  pay12_at (k0_pay4 v0) k0_pay5 (k0_pay6 v0) v36 (kn K b) (K b) (fun s d => M b (hi s) d)
    (fun k => kn_at K b v0 hK k 0) (fun d => pay5_at 0 d) (fun k d => (pay6_at v0 k d).trans (hK k d)) hHi k s

/-- The reciprocal of the summed weights. -/
theorem inv_at (hK : ∀ (k : Fin 8) (d : Fin 128), v0 (ix3 (0 : Fin 1) k d) = ((K b k d : ℝ) : EReal))
    (hLo : ∀ (s : Fin 4096) (d : Fin 128), v14 (ix3 (0 : Fin 1) s d) = ((M b (lo s) d : ℝ) : EReal))
    (hHi : ∀ (s : Fin 4096) (d : Fin 128), v36 (ix3 (0 : Fin 1) s d) = ((M b (hi s) d : ℝ) : EReal))
    (k : Fin 8) (u : Fin 1) :
    k0_pay13 (k0_pay4 v0) k0_pay5 (k0_pay6 v0) (k0_pay10 v0 v14) v36 (ix2 k u) = ((invU K M b k : ℝ) : EReal) :=
  pay13_at (k0_pay4 v0) k0_pay5 (k0_pay6 v0) (k0_pay10 v0 v14) v36 (fun k s => wU K M b k (hi s))
    (fun k => ∑ s : Fin 4096, wU K M b k (lo s)) (wHi_at K M b v0 v36 hK hHi)
    (pay10_at v0 v14 (fun k s => wU K M b k (lo s)) (wLo_at K M b v0 v14 hK hLo))
    (fun k => (denU_pos K M b k).ne') k u

end Stores

/-- The first store: the read. -/
theorem read_at (K : Fin 32 → Fin 8 → Fin 128 → ℝ) (M : Fin 32 → Fin 8192 → Fin 128 → ℝ) (U : Fin 32 → Fin 8192 → ℝ) (b : Fin 32)
    (v0 : Vec Ideal S1x8x128 .f32) (v2 : Vec Ideal S1x1x8192 .f32) (v14 v36 : Vec Ideal S1x4096x128 .f32)
    (hK : ∀ (k : Fin 8) (d : Fin 128), v0 (ix3 (0 : Fin 1) k d) = ((K b k d : ℝ) : EReal))
    (hLo : ∀ (s : Fin 4096) (d : Fin 128), v14 (ix3 (0 : Fin 1) s d) = ((M b (lo s) d : ℝ) : EReal))
    (hHi : ∀ (s : Fin 4096) (d : Fin 128), v36 (ix3 (0 : Fin 1) s d) = ((M b (hi s) d : ℝ) : EReal))
    (hU : ∀ (s : Fin 8192), v2 (ix3 (0 : Fin 1) (0 : Fin 1) s) = ((U b s : ℝ) : EReal))
    (k : Fin 8) (d : Fin 128) :
    k0_pay14 (k0_pay4 v0) k0_pay5 (k0_pay6 v0) (k0_pay9 v0 v14) (k0_pay10 v0 v14) v36 (ix3 (0 : Fin 1) k d)
      = ((readU K M b k d : ℝ) : EReal) :=
  pay14_at (k0_pay4 v0) k0_pay5 (k0_pay6 v0) (k0_pay9 v0 v14) (k0_pay10 v0 v14) v36
    (fun k s => wU K M b k (hi s)) (fun s d => M b (hi s) d)
    (fun k d => ∑ s : Fin 4096, wU K M b k (lo s) * M b (lo s) d) (invU K M b)
    (wHi_at K M b v0 v36 hK hHi) hHi
    (pay9_at v0 v14 (fun k s => wU K M b k (lo s)) (fun s d => M b (lo s) d) (wLo_at K M b v0 v14 hK hLo) hLo)
    (fun k => inv_at K M b v0 v14 v36 hK hLo hHi k 0) 0 k d

/-- The second store: the new usage of rows 0–4095. -/
theorem useLo_at (K : Fin 32 → Fin 8 → Fin 128 → ℝ) (M : Fin 32 → Fin 8192 → Fin 128 → ℝ) (U : Fin 32 → Fin 8192 → ℝ) (b : Fin 32)
    (v0 : Vec Ideal S1x8x128 .f32) (v2 : Vec Ideal S1x1x8192 .f32) (v14 v36 : Vec Ideal S1x4096x128 .f32)
    (hK : ∀ (k : Fin 8) (d : Fin 128), v0 (ix3 (0 : Fin 1) k d) = ((K b k d : ℝ) : EReal))
    (hLo : ∀ (s : Fin 4096) (d : Fin 128), v14 (ix3 (0 : Fin 1) s d) = ((M b (lo s) d : ℝ) : EReal))
    (hHi : ∀ (s : Fin 4096) (d : Fin 128), v36 (ix3 (0 : Fin 1) s d) = ((M b (hi s) d : ℝ) : EReal))
    (hU : ∀ (s : Fin 8192), v2 (ix3 (0 : Fin 1) (0 : Fin 1) s) = ((U b s : ℝ) : EReal))
    (s : Fin 4096) :
    k0_pay15 (k0_pay3 v2) (k0_pay4 v0) k0_pay5 (k0_pay6 v0) (k0_pay8 v0 v14) (k0_pay10 v0 v14) v36
        (ix3 (0 : Fin 1) (0 : Fin 1) s)
      = ((usageU K M U b (lo s) : ℝ) : EReal) :=
  pay15_at (k0_pay3 v2) (k0_pay4 v0) k0_pay5 (k0_pay6 v0) (k0_pay8 v0 v14) (k0_pay10 v0 v14) v36
    (U b) (fun k s => wU K M b k (lo s)) (invU K M b)
    (fun s => (pay3_at v2 0 s).trans (hU s)) (wLo_at K M b v0 v14 hK hLo)
    (fun k => inv_at K M b v0 v14 v36 hK hLo hHi k 0) 0 0 s

/-- The third store: the new usage of rows 4096–8191. -/
theorem useHi_at (K : Fin 32 → Fin 8 → Fin 128 → ℝ) (M : Fin 32 → Fin 8192 → Fin 128 → ℝ) (U : Fin 32 → Fin 8192 → ℝ) (b : Fin 32)
    (v0 : Vec Ideal S1x8x128 .f32) (v2 : Vec Ideal S1x1x8192 .f32) (v14 v36 : Vec Ideal S1x4096x128 .f32)
    (hK : ∀ (k : Fin 8) (d : Fin 128), v0 (ix3 (0 : Fin 1) k d) = ((K b k d : ℝ) : EReal))
    (hLo : ∀ (s : Fin 4096) (d : Fin 128), v14 (ix3 (0 : Fin 1) s d) = ((M b (lo s) d : ℝ) : EReal))
    (hHi : ∀ (s : Fin 4096) (d : Fin 128), v36 (ix3 (0 : Fin 1) s d) = ((M b (hi s) d : ℝ) : EReal))
    (hU : ∀ (s : Fin 8192), v2 (ix3 (0 : Fin 1) (0 : Fin 1) s) = ((U b s : ℝ) : EReal))
    (s : Fin 4096) :
    k0_pay1 (k0_pay16 (k0_pay3 v2)) (k0_pay17 (k0_pay4 v0) k0_pay5 (k0_pay6 v0) (k0_pay10 v0 v14) v36)
        (ix3 (0 : Fin 1) (0 : Fin 1) s)
      = ((usageU K M U b (hi s) : ℝ) : EReal) := by
  rw [pay1_at, pay16_at, pay3_at, hU]
  show _ = (((U b (hi s) + ∑ k : Fin 8, wU K M b k (hi s) * invU K M b k : ℝ)) : EReal)
  rw [EReal.coe_add, Cert.LibFinite.coe_finset_sum]
  congr 1
  refine Finset.sum_congr rfl fun k _ => ?_
  rw [pay17_at, wHi_at K M b v0 v36 hK hHi, inv_at K M b v0 v14 v36 hK hLo hHi, EReal.coe_mul]

end Cert.KernelPayload

end
-- ==== Proof.AttnValue.lean ====
/-
  The read array after the run.

  At batch `t` the body stores the read whole, from the four input blocks, and the pipeline writes it back to block
  `(t, 0, 0)` of the read array.  On all-real arguments the input blocks hold the reals of batch `t`, so what is
  stored is the specification's unshifted read of batch `t`, entry by entry; the 32 batches' blocks tile the array.
-/
import proofs.«113234_g16999480558224_cont_week2b_405_14_alg».proof.Proof.AttnBlocks
import proofs.«113234_g16999480558224_cont_week2b_405_14_alg».proof.Proof.KernelPayload

set_option maxRecDepth 16384

noncomputable section

namespace Cert.KernelIdeal.AttnValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Attn Cert.KernelIdeal.AttnBlocks Cert.Coords Cert.Spec

variable (m : (ℓ : Loc nD τ sig) → Buf (Elt Ideal) ℓ)

theorem hz3 : (![0, 0, 0] : Fin 3 → Nat) = fun _ => 0 := funext fun a => by fin_cases a <;> rfl

/-- The read buffer after the body, on blocks whose entries are the reals of batch `b`: the unshifted read. -/
theorem outRead_at (K : Fin 32 → Fin 8 → Fin 128 → ℝ) (M : Fin 32 → Fin 8192 → Fin 128 → ℝ) (U : Fin 32 → Fin 8192 → ℝ) (b : Fin 32)
    (x0 : Vec Ideal S1x8x128 .f32) (x1 x2 : Vec Ideal S1x4096x128 .f32) (x3 : Vec Ideal S1x1x8192 .f32)
    (hK : ∀ (k : Fin 8) (d : Fin 128), x0 (ix3 (0 : Fin 1) k d) = ((K b k d : ℝ) : EReal))
    (hLo : ∀ (s : Fin 4096) (d : Fin 128), x1 (ix3 (0 : Fin 1) s d) = ((M b (lo s) d : ℝ) : EReal))
    (hHi : ∀ (s : Fin 4096) (d : Fin 128), x2 (ix3 (0 : Fin 1) s d) = ((M b (hi s) d : ℝ) : EReal))
    (hU : ∀ (s : Fin 8192), x3 (ix3 (0 : Fin 1) (0 : Fin 1) s) = ((U b s : ℝ) : EReal))
    (k : Fin 8) (d : Fin 128) :
    outRead (F := Ideal) x0 x1 x2 (ix3 (0 : Fin 1) k d) = ((readU K M b k d : ℝ) : EReal) := by
  unfold outRead
  rw [View.canon_unit_zero hz3]
  unfold payRead
  simp only [View.ld_unit_zero (S := S1x8x128) hz3, View.ld_unit_zero (S := S1x4096x128) hz3]
  exact Cert.KernelPayload.read_at K M U b x0 x3 x1 x2 hK hLo hHi hU k d

section Final
variable (c : Dev nD)
  (h0 : AllReal (m ((c.tc : Thread nD τ).loc main_arg0)))
  (h1 : AllReal (m ((c.tc : Thread nD τ).loc main_arg1)))
  (h2 : AllReal (m ((c.tc : Thread nD τ).loc main_arg2)))

/-- The read the specification gives for the argument arrays, as an array. -/
abbrev readArr : S32x8x128.Idx → EReal :=
  arr3 (readU (of3 (m ((c.tc : Thread nD τ).loc main_arg0))) (of3 (m ((c.tc : Thread nD τ).loc main_arg1))))

include h0 h1 h2 in
/-- What batch `t` writes back of the read is block `t` of the specification's read. -/
theorem flushed_read (t : Fin cfg0.N) :
    (dats m 0 c).flushed 4 t = ((cfg0.win 4).blk t).view.read (Elt Ideal) (readArr m c) := by
  show (cfg0.win 4).cut (grid0.coords t) ((dats m 0 c).after 4 t) = _
  rw [after4]
  funext j
  obtain ⟨u, k, d, rfl⟩ : ∃ (u : Fin 1) (k : Fin 8) (d : Fin 128), j = ix3 u k d := ⟨j 0, j 1, j 2, eq_ix3 j⟩
  obtain rfl : u = 0 := Subsingleton.elim _ _
  rw [View.read_apply]
  obtain ⟨-, -, -, -, ⟨e0, e1, e2⟩, -⟩ := idx_facts t
  have hi : ((cfg0.win 4).blk t).view.emb (ix3 (0 : Fin 1) k d) = (ix3 (batch t) k d : S32x8x128.Idx) := by
    funext a
    apply Fin.ext
    match a with
    | ⟨0, _⟩ => show win0_4.index t (0 : Fin 3) * 1 + 1 * 0 = t.val; omega
    | ⟨1, _⟩ => show win0_4.index t (1 : Fin 3) * 8 + 1 * k.val = k.val; omega
    | ⟨2, _⟩ => show win0_4.index t (2 : Fin 3) * 128 + 1 * d.val = d.val; omega
  show outRead (iblk m c 0 t) (iblk m c 1 t) (iblk m c 2 t) (ix3 (0 : Fin 1) k d)
    = readArr m c (((cfg0.win 4).blk t).view.emb (ix3 (0 : Fin 1) k d))
  rw [hi]
  exact outRead_at (of3 (m ((c.tc : Thread nD τ).loc main_arg0))) (of3 (m ((c.tc : Thread nD τ).loc main_arg1)))
    (of2 (m ((c.tc : Thread nD τ).loc main_arg2))) (batch t) (iblk m c 0 t) (iblk m c 1 t) (iblk m c 2 t) (iblk m c 3 t)
    (keys_real m c h0 t) (rowsLo_real m c h1 t) (rowsHi_real m c h1 t) (usage_real m c h2 t) k d

/-- An index of the read array is in batch `t`'s block iff each coordinate is in the block's range on its axis. -/
theorem mem_blk_read (t : Fin cfg0.N) (i : S32x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v1_0).slice (win0_4.rect t)).set ↔ _
  rw [View.set_slice_whole, Rect.mem_set_unit]
  exact Iff.rfl

/-- Every index of the read array is in the block of its batch. -/
theorem cover_read (i : S32x8x128.Idx) :
    ∃ t : Fin cfg0.N, (cfg0.win 4).flush t = true ∧ i ∈ ((cfg0.win 4).blk t).view.set := by
  obtain ⟨b, k, d, rfl⟩ : ∃ (b : Fin 32) (k : Fin 8) (d : Fin 128), i = ix3 b k d := ⟨i 0, i 1, i 2, eq_ix3 i⟩
  have hN : cfg0.N = 32 := N_0
  have hb : b.val < cfg0.N := by have := b.isLt; omega
  refine ⟨⟨b.val, hb⟩, flush0_4 _, ?_⟩
  rw [mem_blk_read]
  obtain ⟨-, -, -, -, ⟨e0', e1, e2⟩, -⟩ := idx_facts ⟨b.val, hb⟩
  have e0 : win0_4.index ⟨b.val, hb⟩ (0 : Fin 3) = b.val := e0'
  have hk := k.isLt
  have hd := d.isLt
  intro a
  match a with
  | ⟨0, _⟩ =>
    show win0_4.index ⟨b.val, _⟩ (0 : Fin 3) * 1 ≤ b.val ∧ b.val < win0_4.index ⟨b.val, _⟩ (0 : Fin 3) * 1 + 1
    rw [e0]; omega
  | ⟨1, _⟩ =>
    show win0_4.index ⟨b.val, _⟩ (1 : Fin 3) * 8 ≤ k.val ∧ k.val < win0_4.index ⟨b.val, _⟩ (1 : Fin 3) * 8 + 8
    rw [e1]; omega
  | ⟨2, _⟩ =>
    show win0_4.index ⟨b.val, _⟩ (2 : Fin 3) * 128 ≤ d.val ∧ d.val < win0_4.index ⟨b.val, _⟩ (2 : Fin 3) * 128 + 128
    rw [e2]; omega

include h0 h1 h2 in
/-- After the run the read array holds the specification's unshifted read of the argument arrays. -/
theorem read_final :
    (dats m 0 c).arrAt 4 cfg0.N
      = arr3 (readU (of3 (m ((c.tc : Thread nD τ).loc main_arg0))) (of3 (m ((c.tc : Thread nD τ).loc main_arg1)))) :=
  (dats m 0 c).arrAt_eq_of_cover 4 (readArr m c) (fun t _ => flushed_read m c h0 h1 h2 t) (cover_read)

end Final

end Cert.KernelIdeal.AttnValue

end
-- ==== Proof.AttnValueUse.lean ====
/-
  The second result of the attention-read program after the run: the new usage, as one function of the
  three argument arrays.

  At batch `t` the kernel's usage window is the row `t` of the [32,1,8192] array, stored in two halves:
  columns 0–4095 hold the new usage of the lower half's rows, columns 4096–8191 that of the upper half's.
  The input blocks at batch `t` are the keys of batch `t`, rows 0–4095 and rows 4096–8191 of batch `t`'s
  memory, and row `t` of the usage; every entry is a real number.  So the row written back at batch `t` is
  row `t` of the array whose entry `(b, 0, s)` is the specification's new usage of row `s` of batch `b`;
  the 32 rows tile the array, and the reshape after the region drops the middle unit axis.
-/
import proofs.«113234_g16999480558224_cont_week2b_405_14_alg».proof.Proof.AttnRun
import proofs.«113234_g16999480558224_cont_week2b_405_14_alg».proof.Proof.AttnBlocks
import proofs.«113234_g16999480558224_cont_week2b_405_14_alg».proof.Proof.KernelPayload
import Idealize.ShloMosaic.Lib.Pipeline.Value
import Idealize.ShloMosaic.Lib.Tactic

set_option maxRecDepth 16384

noncomputable section

namespace Cert.KernelIdeal.AttnValueUse

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Attn Cert.KernelIdeal.AttnBlocks Cert.Spec

variable (m : (ℓ : Loc nD τ sig) → Buf (Elt Ideal) ℓ)

/-! ## What the body leaves in the usage buffer, entry by entry -/

theorem hz3 : (![0, 0, 0] : Fin 3 → Nat) = fun _ => 0 := funext fun a => by fin_cases a <;> rfl

/-- From blocks holding the keys, the two halves of the rows and the usage row of a batch `b`, all real, the usage
    buffer after the body holds the new usage of batch `b`: the upper half's store covers columns 4096–8191, the
    lower half's columns 0–4095, and the two tile the row. -/
theorem outUse_at (K : Fin 32 → Fin 8 → Fin 128 → ℝ) (M : Fin 32 → Fin 8192 → Fin 128 → ℝ) (U : Fin 32 → Fin 8192 → ℝ) (b : Fin 32)
    (x0 : Vec Ideal S1x8x128 .f32) (x1 x2 : Vec Ideal S1x4096x128 .f32) (x3 : Vec Ideal S1x1x8192 .f32)
    (hK : ∀ (k : Fin 8) (d : Fin 128), x0 (ix3 (0 : Fin 1) k d) = ((K b k d : ℝ) : EReal))
    (hLo : ∀ (s : Fin 4096) (d : Fin 128), x1 (ix3 (0 : Fin 1) s d) = ((M b (lo s) d : ℝ) : EReal))
    (hHi : ∀ (s : Fin 4096) (d : Fin 128), x2 (ix3 (0 : Fin 1) s d) = ((M b (hi s) d : ℝ) : EReal))
    (hU : ∀ (s : Fin 8192), x3 (ix3 (0 : Fin 1) (0 : Fin 1) s) = ((U b s : ℝ) : EReal))
    (u u' : Fin 1) (s : Fin 8192) :
    outUse x0 x1 x2 x3 (ix3 u u' s) = ((usageU K M U b s : ℝ) : EReal) := by
  unfold outUse
  refine (View.canon_apply_of_pieces (fun y : S1x1x8192.Idx => ((usageU K M U b ⟨(y 2).val, (y 2).isLt⟩ : ℝ) : EReal)) _ ?_
    (ix3 u u' s) (coverUse _ _ _)).trans rfl
  intro p hp x
  rcases List.mem_cons.mp hp with rfl | hp
  · -- the upper half's store: column `4096 + r` holds the new usage of row `hi r`
    obtain ⟨v, v', r, rfl⟩ : ∃ (v v' : Fin 1) (r : Fin 4096), x = ix3 v v' r := ⟨x 0, x 1, x 2, eq_ix3 x⟩
    obtain rfl : v = 0 := Subsingleton.elim _ _
    obtain rfl : v' = 0 := Subsingleton.elim _ _
    show payUseHi x0 x1 x2 x3 (ix3 (0 : Fin 1) (0 : Fin 1) r) = _
    unfold payUseHi
    simp only [View.ld_unit_zero (S := S1x8x128) hz3, View.ld_unit_zero (S := S1x4096x128) hz3,
      View.ld_unit_zero (S := S1x1x8192) hz3]
    rw [Cert.KernelPayload.useHi_at K M U b x0 x3 x1 x2 hK hLo hHi hU r]
    exact congrArg (fun q => ((usageU K M U b q : ℝ) : EReal))
      (Fin.ext (by show r.val + 4096 = 4096 + 1 * r.val; omega))
  · -- the lower half's store: column `r` holds the new usage of row `lo r`
    obtain rfl := List.mem_singleton.mp hp
    obtain ⟨v, v', r, rfl⟩ : ∃ (v v' : Fin 1) (r : Fin 4096), x = ix3 v v' r := ⟨x 0, x 1, x 2, eq_ix3 x⟩
    obtain rfl : v = 0 := Subsingleton.elim _ _
    obtain rfl : v' = 0 := Subsingleton.elim _ _
    show payUseLo x0 x1 x2 x3 (ix3 (0 : Fin 1) (0 : Fin 1) r) = _
    unfold payUseLo
    simp only [View.ld_unit_zero (S := S1x8x128) hz3, View.ld_unit_zero (S := S1x4096x128) hz3,
      View.ld_unit_zero (S := S1x1x8192) hz3]
    rw [Cert.KernelPayload.useLo_at K M U b x0 x3 x1 x2 hK hLo hHi hU r]
    exact congrArg (fun q => ((usageU K M U b q : ℝ) : EReal))
      (Fin.ext (by show r.val = 0 + 1 * r.val; omega))

/-! ## The new usage array after the region -/

section Final
variable (c : Dev nD)

/-- The new usage as an array [32,1,8192]: entry `(b, 0, s)` is the specification's new usage of row `s` of batch `b`,
    from the real coordinate functions of the three arguments. -/
def G5 : S32x1x8192.Idx → EReal := fun i =>
  ((usageU (Cert.Coords.of3 (m ((c.tc : Thread nD τ).loc main_arg0))) (Cert.Coords.of3 (m ((c.tc : Thread nD τ).loc main_arg1)))
    (Cert.Coords.of2 (m ((c.tc : Thread nD τ).loc main_arg2))) ⟨(i 0).val, (i 0).isLt⟩ ⟨(i 2).val, (i 2).isLt⟩ : ℝ) : EReal)

variable (h0 : Cert.Coords.AllReal (m ((c.tc : Thread nD τ).loc main_arg0)))
  (h1 : Cert.Coords.AllReal (m ((c.tc : Thread nD τ).loc main_arg1)))
  (h2 : Cert.Coords.AllReal (m ((c.tc : Thread nD τ).loc main_arg2)))

include h0 h1 h2 in
/-- What batch `t` writes back is row `t` of that array. -/
theorem flushed5_eq (t : Fin cfg0.N) :
    (dats m 0 c).flushed 5 t = ((cfg0.win 5).blk t).view.read (Elt Ideal) (G5 m c) := by
  obtain ⟨-, -, -, -, -, ⟨e0, e1, e2⟩⟩ := idx_facts t
  show (cfg0.win 5).cut (grid0.coords t) ((dats m 0 c).after 5 t) = _
  rw [after5]
  funext j
  obtain ⟨u, u', s, rfl⟩ : ∃ (u u' : Fin 1) (s : Fin 8192), j = ix3 u u' s := ⟨j 0, j 1, j 2, eq_ix3 j⟩
  show outUse (iblk m c 0 t) (iblk m c 1 t) (iblk m c 2 t) (iblk m c 3 t) (ix3 u u' s)
    = G5 m c (((cfg0.win 5).blk t).view.emb (ix3 u u' s))
  rw [outUse_at _ _ _ (batch t) (iblk m c 0 t) (iblk m c 1 t) (iblk m c 2 t) (iblk m c 3 t)
    (keys_real m c h0 t) (rowsLo_real m c h1 t) (rowsHi_real m c h1 t) (usage_real m c h2 t) u u' s]
  unfold G5
  refine congrArg₂ (fun p q => ((usageU _ _ _ p q : ℝ) : EReal)) (Fin.ext ?_) (Fin.ext ?_)
  · show t.val = win0_5.index t (0 : Fin 3) * 1 + 1 * u.val; omega
  · show s.val = win0_5.index t (2 : Fin 3) * 8192 + 1 * s.val; omega

/-- An index of the array lies in batch `t`'s block iff each coordinate lies in the block's range on its axis. -/
theorem mem_blk5 (t : Fin cfg0.N) (i : S32x1x8192.Idx) :
    i ∈ ((cfg0.win 5).blk t).view.set ↔ ∀ a : Fin 3, win0_5.index t a * S1x1x8192.size a ≤ (i a).val
      ∧ (i a).val < win0_5.index t a * S1x1x8192.size a + S1x1x8192.size a := by
  show i ∈ ((View.whole main_v1_1).slice (win0_5.rect t)).set ↔ _
  rw [View.set_slice_whole, Rect.mem_set_unit]
  exact Iff.rfl

include h0 h1 h2 in
/-- The 32 rows tile the array: after the region it is the new usage. -/
theorem final5 : (dats m 0 c).arrAt 5 cfg0.N = G5 m c :=
  (dats m 0 c).arrAt_eq_of_cover 5 (G5 m c) (fun t _ => flushed5_eq m c h0 h1 h2 t) fun i => by
    have hi0 : (i 0).val < 32 := (i 0).isLt
    have hi1 : (i 1).val < 1 := (i 1).isLt
    have hi2 : (i 2).val < 8192 := (i 2).isLt
    obtain ⟨t, ht⟩ : ∃ t : Fin cfg0.N, t.val = (i 0).val := ⟨⟨(i 0).val, lt_of_lt_of_eq hi0 N_0.symm⟩, rfl⟩
    obtain ⟨-, -, -, -, -, ⟨e0, e1, e2⟩⟩ := idx_facts t
    refine ⟨t, flush0_5 t, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1 ≤ (i 1).val ∧ (i 1).val < win0_5.index t (1 : Fin 3) * 1 + 1; omega
    | ⟨2, _⟩ => show win0_5.index t (2 : Fin 3) * 8192 ≤ (i 2).val ∧ (i 2).val < win0_5.index t (2 : Fin 3) * 8192 + 8192; omega

/-- After the region the new usage's buffer holds the window's final array: window 5 is the only window on it. -/
theorem withArrays_use (V : Valuation τ sig (Elt Ideal))
    (A : (w : Fin 6) → Buf (Elt Ideal) ((spec0 w).arr.view.loc (c.tc : Thread nD τ))) :
    Pipeline.withArrays spec0 c V A (Proc.devRef .tc main_v1_1) = A 5 := by
  unfold Pipeline.withArrays
  have h : ∃ w', Proc.devRef .tc (Pipeline.arrRef spec0 w') = Proc.devRef (τ := τ) .tc main_v1_1 := ⟨5, rfl⟩
  rw [dif_pos h]
  suffices ∀ (w' : Fin 6) (e : Proc.devRef .tc (Pipeline.arrRef spec0 w') = Proc.devRef (τ := τ) .tc main_v1_1),
      cast (congrArg (fun b' : DevRef τ sig => b'.ty.Contents (Elt Ideal)) e) (A w') = A 5 from this _ h.choose_spec
  intro w' e
  obtain rfl : w' = 5 := (by decide : ∀ w' : Fin 6, Pipeline.arrRef spec0 w' = main_v1_1 → w' = 5) w' (Proc.devRef_injective _ e)
  rfl

include h0 h1 h2 in
/-- The second result after the run: the reshape of the new usage to [32,8192]. -/
theorem use_final :
    Pipeline.afterTail₀ cfgs (dats (F := Ideal) m) 0 (V0 m) [hostOps1] c main_v2
      = Cert.Coords.arr2 (usageU (Cert.Coords.of3 (m ((c.tc : Thread nD τ).loc main_arg0)))
          (Cert.Coords.of3 (m ((c.tc : Thread nD τ).loc main_arg1))) (Cert.Coords.of2 (m ((c.tc : Thread nD τ).loc main_arg2)))) := by
  unfold Pipeline.afterTail₀
  show StableHlo.after hostOps1 _ (Proc.devRef .tc main_v2) = _
  after_results
  funext i
  obtain ⟨b, s, rfl⟩ : ∃ (b : Fin 32) (s : Fin 8192), i = ix2 b s := ⟨i 0, i 1, eq_ix2 i⟩
  show shapeCast S32x8192 (Pipeline.withArrays spec0 c (V0 m c) (fun w => (dats m 0 c).arrAt w cfg0.N)
    (Proc.devRef .tc main_v1_1)) shapeCasts_S32x1x8192_S32x8192 (ix2 b s) = _
  rw [withArrays_use, final5 m c h0 h1 h2]
  refine (shapeCast_apply _ _ _ (ix3 b (0 : Fin 1) s) ?_).trans rfl
  rw [Shape.rowMajor_val_two, Shape.rowMajor_val_three]
  show (b.val * 1 + 0) * 8192 + s.val = b.val * 8192 + s.val
  omega

end Final

end Cert.KernelIdeal.AttnValueUse

end
-- ==== Proof.RefSide.lean ====
/-
  What the reference computes, read at the exact extended reals, when every input entry is a real number.

  Every intermediate value is then the coercion of a real number, and the coercion is pushed outward through
  each operation in program order: the two norms (a sum of squares is nonnegative, so its square root is the
  real one; `ε` plus a norm is positive, so the quotient is the real one), the similarity, its maximum over
  the rows (the maximum from `-∞` of finitely many reals is their real maximum), the shifted exponential, the
  sum of the weights (positive), the attention, and the two results.  The outcome is the shifted arrangement of
  `Cert.Spec`.
-/
import proofs.«113234_g16999480558224_cont_week2b_405_14_alg».proof.Proof.Spec
import proofs.«113234_g16999480558224_cont_week2b_405_14_alg».proof.Proof.Coords
import proofs.«113234_g16999480558224_cont_week2b_405_14_alg».proof.Proof.LibFinite
import proofs.«113234_g16999480558224_cont_week2b_405_14_alg».proof.Proof.LibFiniteLits
import proofs.«113234_g16999480558224_cont_week2b_405_14_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx Cert.Coords Cert.Spec

/-! ## The literals -/

/-- `0x0DA24260` is the binary32 number nearest `10⁻³⁰`. -/
theorem ofBits_eps : Ideal.ofBits .f32 0x0DA24260#32 = ((eps : ℝ) : EReal) := by
  unfold eps
  simp [Ideal.ofBits, Ideal.ieee, -EReal.coe_mul]

/-- `0x40A00000` is `5`. -/
theorem ofBits_five : Ideal.ofBits .f32 0x40A00000#32 = ((5 : ℝ) : EReal) := by
  simp [Ideal.ofBits, Ideal.ieee, -EReal.coe_mul]; norm_num

/-- `0xFF800000` is `-∞`. -/
theorem ofBits_neg_inf : Ideal.ofBits .f32 0xFF800000#32 = ⊥ := by
  simp [Ideal.ofBits, Ideal.ieee]

/-- The maximum from `-∞` of a nonempty finite family of reals is the coercion of the family's maximum. -/
theorem fold_max_bot_coe {ι : Type} [Fintype ι] [Nonempty ι] (f : ι → ℝ) :
    (Finset.univ : Finset ι).fold max (⊥ : EReal) (fun s => ((f s : ℝ) : EReal))
      = ((Finset.univ.sup' Finset.univ_nonempty f : ℝ) : EReal) := by
  rw [Finset.comp_sup'_eq_sup'_comp Finset.univ_nonempty (fun r : ℝ => (r : EReal))
    (fun x y => Cert.LibFinite.coe_max x y), Finset.sup'_eq_sup]
  rfl

variable (a0 : S32x8x128.Idx → EReal) (a1 : S32x8192x128.Idx → EReal) (a2 : S32x8192.Idx → EReal)

/-! ## The index maps of the generated stages, at coordinates -/

theorem lidx_v0 (b : Fin 32) (k : Fin 8) (s : Fin 8192) (d : Fin 128) :
    lidx_main_v0 (ix3 b k s) d = ix3 b k d := by
  funext a; match a with | ⟨0, _⟩ => rfl | ⟨1, _⟩ => rfl | ⟨2, _⟩ => rfl

theorem ridx_v0 (b : Fin 32) (k : Fin 8) (s : Fin 8192) (d : Fin 128) :
    ridx_main_v0 (ix3 b k s) d = ix3 b s d := by
  funext a; match a with | ⟨0, _⟩ => rfl | ⟨1, _⟩ => rfl | ⟨2, _⟩ => rfl

theorem idx_call0_v1 (b : Fin 32) (k : Fin 8) (d : Fin 128) :
    idx_main_call0_v1 (ix2 b k) d = ix3 b k d := by
  funext a; match a with | ⟨0, _⟩ => rfl | ⟨1, _⟩ => rfl | ⟨2, _⟩ => rfl

theorem idx_call1_v1 (b : Fin 32) (s : Fin 8192) (d : Fin 128) :
    idx_main_call1_v1 (ix2 b s) d = ix3 b s d := by
  funext a; match a with | ⟨0, _⟩ => rfl | ⟨1, _⟩ => rfl | ⟨2, _⟩ => rfl

theorem idx_v12 (b : Fin 32) (k : Fin 8) (s : Fin 8192) :
    idx_main_v11 (idx_main_v12 (ix3 b k s)) = ix2 b k := by
  funext a; match a with | ⟨0, _⟩ => rfl | ⟨1, _⟩ => rfl

theorem idx_v15 (b : Fin 32) (k : Fin 8) (s : Fin 8192) :
    idx_main_v14 (idx_main_v15 (ix3 b k s)) = ix2 b s := by
  funext a; match a with | ⟨0, _⟩ => rfl | ⟨1, _⟩ => rfl

theorem idx_v23 (b : Fin 32) (k : Fin 8) (s : Fin 8192) :
    idx_main_v22 (idx_main_v23 (ix3 b k s)) = ix2 b k := by
  funext a; match a with | ⟨0, _⟩ => rfl | ⟨1, _⟩ => rfl

theorem idx_v28 (b : Fin 32) (k : Fin 8) (s : Fin 8192) :
    idx_main_v27 (idx_main_v28 (ix3 b k s)) = ix2 b k := by
  funext a; match a with | ⟨0, _⟩ => rfl | ⟨1, _⟩ => rfl

theorem idx_v26 (b : Fin 32) (k : Fin 8) (s : Fin 8192) :
    idx_main_v26 (ix2 b k) s = ix3 b k s := by
  funext a; match a with | ⟨0, _⟩ => rfl | ⟨1, _⟩ => rfl | ⟨2, _⟩ => rfl

theorem lidx_v30 (b : Fin 32) (k : Fin 8) (d : Fin 128) (s : Fin 8192) :
    lidx_main_v30 (ix3 b k d) s = ix3 b k s := by
  funext a; match a with | ⟨0, _⟩ => rfl | ⟨1, _⟩ => rfl | ⟨2, _⟩ => rfl

theorem ridx_v30 (b : Fin 32) (k : Fin 8) (d : Fin 128) (s : Fin 8192) :
    ridx_main_v30 (ix3 b k d) s = ix3 b s d := by
  funext a; match a with | ⟨0, _⟩ => rfl | ⟨1, _⟩ => rfl | ⟨2, _⟩ => rfl

theorem idx_v31 (b : Fin 32) (s : Fin 8192) (k : Fin 8) :
    idx_main_v31 (ix2 b s) k = ix3 b k s := by
  funext a; match a with | ⟨0, _⟩ => rfl | ⟨1, _⟩ => rfl | ⟨2, _⟩ => rfl

/-! ## The stages on all-real arguments, one at a time -/

section Stages
variable (h0 : AllReal a0) (h1 : AllReal a1) (h2 : AllReal a2)
include h0 h1

/-- The first contraction is `⟨K b k, M b s⟩`. -/
theorem v0_at (b : Fin 32) (k : Fin 8) (s : Fin 8192) :
    val_main_v0 (F := Ideal) a0 a1 (ix3 b k s) = ((dotKM (of3 a0) (of3 a1) b k s : ℝ) : EReal) := by
  rw [val_main_v0_apply]
  simp only [lidx_v0, ridx_v0, at3 h0, at3 h1, ← EReal.coe_mul]
  rw [← Cert.LibFinite.coe_finset_sum]
  rfl

omit h1 in
/-- The sum of the squares of a key's entries. -/
theorem call0_v1_at (b : Fin 32) (k : Fin 8) :
    val_main_call0_v1 (F := Ideal) a0 (ix2 b k)
      = ((∑ d : Fin 128, of3 a0 b k d * of3 a0 b k d : ℝ) : EReal) := by
  rw [val_main_call0_v1_apply]
  simp only [val_main_call0_cst_apply, val_main_call0_v0_apply, idx_call0_v1, Ideal.ofBits_def, Ideal.mulf_def,
    at3 h0, Cert.LibFinite.ofBits_f32_zero, zero_add, ← EReal.coe_mul]
  rw [← Cert.LibFinite.coe_finset_sum]

omit h1 in
/-- The reciprocal of `ε` plus a key's norm. -/
theorem v5_at (b : Fin 32) (k : Fin 8) :
    val_main_v5 (F := Ideal) a0 (ix2 b k) = ((kn (of3 a0) b k : ℝ) : EReal) := by
  have hs : (0 : ℝ) ≤ ∑ d : Fin 128, of3 a0 b k d * of3 a0 b k d :=
    Finset.sum_nonneg fun d _ => mul_self_nonneg _
  have hne : eps + Real.sqrt (∑ d : Fin 128, of3 a0 b k d * of3 a0 b k d) ≠ 0 :=
    (add_pos_of_pos_of_nonneg eps_pos (Real.sqrt_nonneg _)).ne'
  rw [val_main_v5_apply, val_main_v4_apply, val_main_cst_0_apply, val_main_v3_apply, val_main_v2_apply,
    val_main_cst_apply, val_main_v1_apply, call0_v1_at a0 h0, Ideal.ofBits_def, Ideal.ofBits_def,
    Cert.LibFinite.ofBits_f32_one, ofBits_eps, Ideal.hostUnary_sqrt_def, Ideal.sqrt_coe, if_neg (not_lt.mpr hs),
    Ideal.addf_def, ← EReal.coe_add, Ideal.hostDivf_def, ← EReal.coe_one, Cert.LibFinite.div_coe_coe 1 hne]
  rfl

omit h0 in
/-- The sum of the squares of a memory row's entries. -/
theorem call1_v1_at (b : Fin 32) (s : Fin 8192) :
    val_main_call1_v1 (F := Ideal) a1 (ix2 b s)
      = ((∑ d : Fin 128, of3 a1 b s d * of3 a1 b s d : ℝ) : EReal) := by
  rw [val_main_call1_v1_apply]
  simp only [val_main_call1_cst_apply, val_main_call1_v0_apply, idx_call1_v1, Ideal.ofBits_def, Ideal.mulf_def,
    at3 h1, Cert.LibFinite.ofBits_f32_zero, zero_add, ← EReal.coe_mul]
  rw [← Cert.LibFinite.coe_finset_sum]

omit h0 in
/-- The reciprocal of `ε` plus a memory row's norm. -/
theorem v10_at (b : Fin 32) (s : Fin 8192) :
    val_main_v10 (F := Ideal) a1 (ix2 b s) = ((mn (of3 a1) b s : ℝ) : EReal) := by
  have hs : (0 : ℝ) ≤ ∑ d : Fin 128, of3 a1 b s d * of3 a1 b s d :=
    Finset.sum_nonneg fun d _ => mul_self_nonneg _
  have hne : eps + Real.sqrt (∑ d : Fin 128, of3 a1 b s d * of3 a1 b s d) ≠ 0 :=
    (add_pos_of_pos_of_nonneg eps_pos (Real.sqrt_nonneg _)).ne'
  rw [val_main_v10_apply, val_main_v9_apply, val_main_cst_2_apply, val_main_v8_apply, val_main_v7_apply,
    val_main_cst_1_apply, val_main_v6_apply, call1_v1_at a1 h1, Ideal.ofBits_def, Ideal.ofBits_def,
    Cert.LibFinite.ofBits_f32_one, ofBits_eps, Ideal.hostUnary_sqrt_def, Ideal.sqrt_coe, if_neg (not_lt.mpr hs),
    Ideal.addf_def, ← EReal.coe_add, Ideal.hostDivf_def, ← EReal.coe_one, Cert.LibFinite.div_coe_coe 1 hne]
  rfl

/-- The scaled similarity. -/
theorem v18_at (b : Fin 32) (k : Fin 8) (s : Fin 8192) :
    val_main_v18 (F := Ideal) a0 a1 (ix3 b k s) = ((simS (of3 a0) (of3 a1) b k s : ℝ) : EReal) := by
  rw [val_main_v18_apply, val_main_v16_apply, val_main_v13_apply, v0_at a0 a1 h0 h1, val_main_v12_apply,
    val_main_v11_apply, idx_v12, v5_at a0 h0, val_main_v15_apply, val_main_v14_apply, idx_v15, v10_at a1 h1,
    val_main_v17_apply, val_main_cst_3_apply, Ideal.ofBits_def, ofBits_five]
  simp only [Ideal.mulf_def, ← EReal.coe_mul]
  rfl

/-- The largest similarity of a key: the maximum from `-∞` over the rows. -/
theorem v21_at (b : Fin 32) (k : Fin 8) :
    val_main_v21 (F := Ideal) a0 a1 (ix2 b k) = ((maxS (of3 a0) (of3 a1) b k : ℝ) : EReal) := by
  have hfold : val_main_v19 (F := Ideal) a0 a1 (ix2 b k)
      = (Finset.univ : Finset (Fin 8192)).fold max (⊥ : EReal)
          (fun s => ((simS (of3 a0) (of3 a1) b k s : ℝ) : EReal)) := by
    unfold val_main_v19
    rw [Host.reduce_eq_fold_single _ _ _ reducesTo_S32x8x8192_S32x8_d2 (by decide) h_S_]
    rw [val_main_cst_4_apply, Ideal.ofBits_def, ofBits_neg_inf]
    refine congrArg (fun f => Finset.fold max (⊥ : EReal) f (Finset.univ : Finset (Fin 8192))) ?_
    funext s
    refine Eq.trans ?_ (v18_at a0 a1 h0 h1 b k s)
    exact congrArg (val_main_v18 (F := Ideal) a0 a1) (by funext a; match a with | ⟨0, _⟩ => rfl | ⟨1, _⟩ => rfl | ⟨2, _⟩ => rfl)
  rw [val_main_v21_apply, val_main_v20_apply, val_main_cst_5_apply, Ideal.ofBits_def, ofBits_neg_inf,
    Ideal.maximumf_def, hfold, fold_max_bot_coe, max_bot_left]
  rfl

/-- The shifted weight. -/
theorem v25_at (b : Fin 32) (k : Fin 8) (s : Fin 8192) :
    val_main_v25 (F := Ideal) a0 a1 (ix3 b k s) = ((wS (of3 a0) (of3 a1) b k s : ℝ) : EReal) := by
  rw [val_main_v25_apply, val_main_v24_apply, v18_at a0 a1 h0 h1, val_main_v23_apply, val_main_v22_apply, idx_v23,
    v21_at a0 a1 h0 h1, Ideal.subf_def, ← EReal.coe_sub, Ideal.hostUnary_exp_def, Ideal.exp_coe]
  rfl

/-- The sum of the shifted weights. -/
theorem v26_at (b : Fin 32) (k : Fin 8) :
    val_main_v26 (F := Ideal) a0 a1 (ix2 b k) = ((denS (of3 a0) (of3 a1) b k : ℝ) : EReal) := by
  rw [val_main_v26_apply]
  simp only [val_main_cst_6_apply, idx_v26, v25_at a0 a1 h0 h1, Ideal.ofBits_def, Cert.LibFinite.ofBits_f32_zero,
    zero_add]
  rw [← Cert.LibFinite.coe_finset_sum]
  rfl

omit h0 h1 in
/-- The sum of the shifted weights is positive. -/
theorem denS_pos (K : Fin 32 → Fin 8 → Fin 128 → ℝ) (M : Fin 32 → Fin 8192 → Fin 128 → ℝ) (b : Fin 32) (k : Fin 8) :
    0 < denS K M b k := by
  unfold denS wS
  exact Finset.sum_pos (fun _ _ => Real.exp_pos _) Finset.univ_nonempty

/-- The attention. -/
theorem v29_at (b : Fin 32) (k : Fin 8) (s : Fin 8192) :
    val_main_v29 (F := Ideal) a0 a1 (ix3 b k s) = ((attS (of3 a0) (of3 a1) b k s : ℝ) : EReal) := by
  rw [val_main_v29_apply, v25_at a0 a1 h0 h1, val_main_v28_apply, val_main_v27_apply, idx_v28, v26_at a0 a1 h0 h1,
    Ideal.hostDivf_def, Cert.LibFinite.div_coe_coe _ (denS_pos _ _ b k).ne']
  rfl

/-- The read. -/
theorem v30_at (b : Fin 32) (k : Fin 8) (d : Fin 128) :
    val_main_v30 (F := Ideal) a0 a1 (ix3 b k d) = ((readS (of3 a0) (of3 a1) b k d : ℝ) : EReal) := by
  rw [val_main_v30_apply]
  simp only [lidx_v30, ridx_v30, v29_at a0 a1 h0 h1, at3 h1, ← EReal.coe_mul]
  rw [← Cert.LibFinite.coe_finset_sum]
  rfl

include h2 in
/-- The new usage. -/
theorem v32_at (b : Fin 32) (s : Fin 8192) :
    val_main_v32 (F := Ideal) a0 a1 a2 (ix2 b s) = ((usageS (of3 a0) (of3 a1) (of2 a2) b s : ℝ) : EReal) := by
  rw [val_main_v32_apply, val_main_v31_apply]
  simp only [val_main_cst_7_apply, idx_v31, v29_at a0 a1 h0 h1, at2 h2, Ideal.ofBits_def,
    Cert.LibFinite.ofBits_f32_zero, zero_add, Ideal.addf_def]
  rw [← Cert.LibFinite.coe_finset_sum, ← EReal.coe_add]
  rfl

end Stages

/-! ## The two results -/

/-- On all-real arguments the reference's first result is the array of the shifted read. -/
theorem res_eq (h0 : AllReal a0) (h1 : AllReal a1) :
    val_main_v30 (F := Ideal) a0 a1 = arr3 (readS (of3 a0) (of3 a1)) := by
  funext i
  obtain ⟨b, k, d, rfl⟩ : ∃ (b : Fin 32) (k : Fin 8) (d : Fin 128), i = ix3 b k d := ⟨i 0, i 1, i 2, eq_ix3 i⟩
  rw [v30_at a0 a1 h0 h1, arr3_apply]

/-- On all-real arguments the reference's second result is the array of the shifted usage update. -/
theorem usage_eq (h0 : AllReal a0) (h1 : AllReal a1) (h2 : AllReal a2) :
    val_main_v32 (F := Ideal) a0 a1 a2 = arr2 (usageS (of3 a0) (of3 a1) (of2 a2)) := by
  funext i
  obtain ⟨b, s, rfl⟩ : ∃ (b : Fin 32) (s : Fin 8192), i = ix2 b s := ⟨i 0, i 1, eq_ix2 i⟩
  rw [v32_at a0 a1 a2 h0 h1 h2, arr2_apply]

end Cert.RefSide

end
-- ==== Proof.SpecLaw.lean ====
/-
  The two arrangements of the attention read written out in `Cert.Spec` are the same real numbers.

  With `c` the largest similarity of a key, `exp (x - c) = exp x · exp (-c)`: every shifted weight is
  the unshifted weight times the one positive factor `exp (-c)`, so is their sum, and the factor
  cancels in the quotient.  A sum over the 8192 rows is the sum over rows 0–4095 plus the sum over
  rows 4096–8191.
-/
import proofs.«113234_g16999480558224_cont_week2b_405_14_alg».proof.Proof.Spec

noncomputable section

namespace Cert.SpecLaw

open Cert.Spec

variable (K : Fin 32 → Fin 8 → Fin 128 → ℝ) (M : Fin 32 → Fin 8192 → Fin 128 → ℝ) (U : Fin 32 → Fin 8192 → ℝ)

/-- A sum over all 8192 rows is the sum over the lower half plus the sum over the upper half. -/
theorem sum_halves (f : Fin 8192 → ℝ) :
    ∑ s : Fin 8192, f s = (∑ s : Fin 4096, f (lo s)) + ∑ s : Fin 4096, f (hi s) := by
  have h := Fin.sum_univ_add (a := 4096) (b := 4096) (f := f)
  have e1 : ∀ s : Fin 4096, Fin.castAdd 4096 s = lo s := fun s => rfl
  have e2 : ∀ s : Fin 4096, Fin.natAdd 4096 s = hi s := fun s => Fin.ext (Nat.add_comm _ _)
  rw [h]
  simp only [e1, e2]

/-- The two similarities differ only in the order of the factors. -/
theorem simU_eq_simS (b : Fin 32) (k : Fin 8) (s : Fin 8192) : simU K M b k s = simS K M b k s := by
  unfold simU simS; ring

/-- A shifted weight is the unshifted weight times `exp (-c)`. -/
theorem wS_eq (b : Fin 32) (k : Fin 8) (s : Fin 8192) :
    wS K M b k s = wU K M b k s * Real.exp (-(maxS K M b k)) := by
  unfold wS wU
  rw [simU_eq_simS, sub_eq_add_neg, Real.exp_add]

/-- So is the sum of the shifted weights. -/
theorem denS_eq (b : Fin 32) (k : Fin 8) :
    denS K M b k = denU K M b k * Real.exp (-(maxS K M b k)) := by
  unfold denS denU
  simp_rw [wS_eq]
  rw [← Finset.sum_mul, sum_halves]

/-- The sum of the unshifted weights is positive. -/
theorem denU_pos (b : Fin 32) (k : Fin 8) : 0 < denU K M b k := by
  unfold denU wU
  exact add_pos (Finset.sum_pos (fun _ _ => Real.exp_pos _) Finset.univ_nonempty)
    (Finset.sum_pos (fun _ _ => Real.exp_pos _) Finset.univ_nonempty)

/-- The attention is the unshifted weight times the reciprocal of the summed unshifted weights. -/
theorem attS_eq (b : Fin 32) (k : Fin 8) (s : Fin 8192) :
    attS K M b k s = wU K M b k s * invU K M b k := by
  have hd : denU K M b k ≠ 0 := (denU_pos K M b k).ne'
  have he : Real.exp (-(maxS K M b k)) ≠ 0 := (Real.exp_pos _).ne'
  unfold attS invU
  rw [wS_eq, denS_eq]
  field_simp

theorem readU_eq_readS (b : Fin 32) (k : Fin 8) (d : Fin 128) :
    readU K M b k d = readS K M b k d := by
  unfold readU readS
  simp_rw [attS_eq]
  rw [sum_halves, add_mul, Finset.sum_mul, Finset.sum_mul]
  congr 1 <;> exact Finset.sum_congr rfl fun s _ => by ring

theorem usageU_eq_usageS (b : Fin 32) (s : Fin 8192) :
    usageU K M U b s = usageS K M U b s := by
  unfold usageU usageS
  simp_rw [attS_eq]

end Cert.SpecLaw

end
-- ==== Proof.FiniteInputs.lean ====
/-
  From the precondition to "every input entry is a real number".

  The precondition is the printed predicate `finite_inputs`: for each of the three input arrays, the
  conjunction over all entries `x` of the test `|x| < +∞`, and the conjunction of the three.  At the exact
  extended reals `|x| = max x (-x)`, which is `+∞` at both infinities: an entry that passes the test is
  neither, so it is the coercion of a real number.
-/
import proofs.«113234_g16999480558224_cont_week2b_405_14_alg».proof.Defs
import proofs.«113234_g16999480558224_cont_week2b_405_14_alg».proof.Proof.Coords
import proofs.«113234_g16999480558224_cont_week2b_405_14_alg».proof.Proof.Gen.Pre_finite_inputs
import Idealize.ShloMosaic.Lib.ReduceAll

noncomputable section

namespace Cert.FiniteInputs

open Idealize.ShloMosaic Idealize.ShloMosaic.TcCoe Idealize.SL.Sem Cert.Coords
open Cert.Pre_finite_inputs (S_ S32x8x128 S32x8192x128 S32x8192)

/-- The rank-0 shape has one index. -/
instance : Subsingleton S_.Idx := ⟨fun a b => funext fun d => d.elim0⟩

/-- `0x7F800000` is `+∞`. -/
theorem ofBits_inf : Ideal.ofBits .f32 0x7F800000#32 = ⊤ := by
  simp [Ideal.ofBits, Ideal.ieee]

/-- A truth value's bit is 1 exactly when it is true. -/
theorem ofBool_eq_one (b : Bool) : BitVec.ofBool b = 1#1 ↔ b = true := by cases b <;> decide

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- An entry that passes the printed test `|x| < +∞` is a real number. -/
theorem real_of_test {s : Shape} (bc : S_.BroadcastsInDim s (![] : Fin 0 → Fin s.rank)) (a : FVec Ideal s .f32) (i : s.Idx)
    (h : cmpf .olt (Host.absf a) (broadcastInDim s ![] bc (constant (F := Ideal) S_ .f32 0x7F800000#32)) i = 1#1) :
    ∃ r : ℝ, a i = (r : EReal) := by
  have h' : BitVec.ofBool (decide (max (a i) (-(a i)) < Ideal.ofBits .f32 0x7F800000#32)) = 1#1 := h
  rw [ofBool_eq_one, decide_eq_true_eq, ofBits_inf] at h'
  exact real_of_abs_lt_top _ h'

/-- The printed predicate, all ones, says that every entry of the three arrays is a real number. -/
theorem of_fn [hP : Cert.Pre_finite_inputs.Facts] (a0 : FVec Ideal S32x8x128 .f32) (a1 : FVec Ideal S32x8192x128 .f32)
    (a2 : FVec Ideal S32x8192 .f32) (h : Cert.Pre_finite_inputs.fn (F := Ideal) a0 a1 a2 = (fun _ => 1#1)) :
    AllReal a0 ∧ AllReal a1 ∧ AllReal a2 := by
  have e := congrFun h ValueIdx.ix0
  dsimp only [Cert.Pre_finite_inputs.fn, andi] at e
  rw [IntOp.andi_eq_one, IntOp.andi_eq_one] at e
  obtain ⟨⟨e0, e1⟩, e2⟩ := e
  exact ⟨fun i => real_of_test _ a0 i (Host.reduce_andi_all _ _ _ _ _ e0 i),
    fun i => real_of_test _ a1 i (Host.reduce_andi_all _ _ _ _ _ e1 i),
    fun i => real_of_test _ a2 i (Host.reduce_andi_all _ _ _ _ _ e2 i)⟩

/-- Under the precondition every entry of the three argument arrays is a real number, on every device. -/
theorem of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2)) :=
  of_fn _ _ _ (h c)

end Cert.FiniteInputs

end
-- ==== Proof.lean ====
/-
  An attention read of a memory with a usage update, computed two ways.

  The kernel walks the 32 batches; at a batch it takes the 8 keys, the 8192 memory rows in two halves, and the usage row,
  forms the scaled cosine similarities of keys and rows, exponentiates them as they are, sums the weights and the weighted
  rows over each half, and normalises once at the end by the reciprocal of the summed weights.  The reference computes the
  same softmax the usual way: it subtracts the largest similarity before exponentiating and divides each weight by the sum.
  On real inputs the two agree: `exp (x - c) = exp x · exp (-c)`, and the factor `exp (-c)` cancels between a weight and
  the sum of the weights (`Cert.SpecLaw`).  The inputs ARE real under the precondition (`Cert.FiniteInputs`), and that is
  needed: the cancellation fails at infinities.

  * The two kernel programs' frames and the kernel's results are `Cert.Kernel.Attn` / `Cert.KernelIdeal.Attn` (the run) and
    `Cert.KernelIdeal.AttnValue` / `AttnValueUse` (what the two result arrays hold, as functions of the arguments).
  * The reference's run and its stages read at an index are the generated modules; `Cert.RefSide` reads them on real inputs.
  * The ideal pass rewrote nothing, so the idealization claim is trivial.
-/
import proofs.«113234_g16999480558224_cont_week2b_405_14_alg».proof.Defs
import proofs.«113234_g16999480558224_cont_week2b_405_14_alg».proof.Proof.Gen.Kernel
import proofs.«113234_g16999480558224_cont_week2b_405_14_alg».proof.Proof.Gen.Kernel.Skeleton
import proofs.«113234_g16999480558224_cont_week2b_405_14_alg».proof.Proof.Gen.Kernel.Launch
import proofs.«113234_g16999480558224_cont_week2b_405_14_alg».proof.Proof.Gen.Kernel.Points
import proofs.«113234_g16999480558224_cont_week2b_405_14_alg».proof.Proof.Gen.KernelIdeal
import proofs.«113234_g16999480558224_cont_week2b_405_14_alg».proof.Proof.Gen.KernelIdeal.Skeleton
import proofs.«113234_g16999480558224_cont_week2b_405_14_alg».proof.Proof.Gen.KernelIdeal.Launch
import proofs.«113234_g16999480558224_cont_week2b_405_14_alg».proof.Proof.Gen.KernelIdeal.Points
import proofs.«113234_g16999480558224_cont_week2b_405_14_alg».proof.Proof.Gen.ReferenceIdeal
import proofs.«113234_g16999480558224_cont_week2b_405_14_alg».proof.Proof.Gen.Pre_finite_inputs
import proofs.«113234_g16999480558224_cont_week2b_405_14_alg».proof.Proof.Gen.ReferenceIdeal.Run
import proofs.«113234_g16999480558224_cont_week2b_405_14_alg».proof.Proof.Gen.ReferenceIdeal.Read
import proofs.«113234_g16999480558224_cont_week2b_405_14_alg».proof.Proof.AttnLaunch
import proofs.«113234_g16999480558224_cont_week2b_405_14_alg».proof.Proof.AttnLaunchBits
import proofs.«113234_g16999480558224_cont_week2b_405_14_alg».proof.Proof.AttnValue
import proofs.«113234_g16999480558224_cont_week2b_405_14_alg».proof.Proof.AttnValueUse
import proofs.«113234_g16999480558224_cont_week2b_405_14_alg».proof.Proof.RefSide
import proofs.«113234_g16999480558224_cont_week2b_405_14_alg».proof.Proof.SpecLaw
import proofs.«113234_g16999480558224_cont_week2b_405_14_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs to its end and leaves its three arguments as they were. -/
theorem frame_kernel : Cert.frame_Kernel (hKernel := Cert.Kernel.Gen.facts) (hPre_finite_inputs := Cert.Pre_finite_inputs.Gen.facts) :=
  fun m ρ _ => Cert.Kernel.Attn.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Attn.frame (F := Ideal) m ρ

/-- The reference is host operations only: its generated run, the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- On real inputs both programs end with the read and the new usage of the shifted softmax: the kernel's unshifted
    arrangement equals it by the cancellation law, the reference's stages are it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.FiniteInputs.of_pre m hpre c
  refine ⟨fun c => Cert.Coords.arr3 (Cert.Spec.readS (Cert.Coords.of3 (m ((c.tc : Thread Cert.KernelIdeal.nD Cert.KernelIdeal.τ).loc Cert.KernelIdeal.main_arg0)))
      (Cert.Coords.of3 (m ((c.tc : Thread Cert.KernelIdeal.nD Cert.KernelIdeal.τ).loc Cert.KernelIdeal.main_arg1)))),
    fun c => Cert.Coords.arr2 (Cert.Spec.usageS (Cert.Coords.of3 (m ((c.tc : Thread Cert.KernelIdeal.nD Cert.KernelIdeal.τ).loc Cert.KernelIdeal.main_arg0)))
      (Cert.Coords.of3 (m ((c.tc : Thread Cert.KernelIdeal.nD Cert.KernelIdeal.τ).loc Cert.KernelIdeal.main_arg1)))
      (Cert.Coords.of2 (m ((c.tc : Thread Cert.KernelIdeal.nD Cert.KernelIdeal.τ).loc Cert.KernelIdeal.main_arg2)))), ?_, ?_⟩
  · refine (θ_run Cert.KernelIdeal.defs _ _).mono (fun r h c => ?_) (Cert.KernelIdeal.Attn.run_named (F := Ideal) m ρ)
    obtain ⟨h0, h1, h2⟩ := hfin c
    refine ⟨(h c).1.trans ?_, (h c).2.1.trans ?_, (h c).2.2⟩
    · rw [Cert.KernelIdeal.AttnValue.read_final m c h0 h1 h2]
      exact congrArg Cert.Coords.arr3 (funext fun b => funext fun k => funext fun d => Cert.SpecLaw.readU_eq_readS _ _ b k d)
    · refine (Cert.KernelIdeal.AttnValueUse.use_final m c h0 h1 h2).trans ?_
      exact congrArg Cert.Coords.arr2 (funext fun b => funext fun s => Cert.SpecLaw.usageU_eq_usageS _ _ _ b s)
  · refine (θ_run Cert.ReferenceIdeal.defs _ _).mono (fun r h c => ?_) (Cert.ReferenceIdeal.Value.run (F := Ideal) m' ρ')
    obtain ⟨h0, h1, h2⟩ := hfin c
    refine ⟨(h c).1.trans ?_, (h c).2.1.trans ?_, (h c).2.2⟩
    · rw [Cert.ReferenceIdeal.Read.val_main_v30_eq, (hagree c).1, (hagree c).2.1]
      exact Cert.RefSide.res_eq _ _ h0 h1
    · rw [Cert.ReferenceIdeal.Read.val_main_v32_eq, (hagree c).1, (hagree c).2.1, (hagree c).2.2]
      exact Cert.RefSide.usage_eq _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
